-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S3200000 : Shape := ⟨1, ![3200000]⟩
abbrev S512x8 : Shape := ⟨2, ![512, 8]⟩
abbrev S8 : Shape := ⟨1, ![8]⟩
abbrev S8x16 : Shape := ⟨2, ![8, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x8 : S_.BroadcastsInDim S512x8 (![] : Fin 0 → Fin S512x8.rank)
  reducesTo_S512x8_S_d0_1 : S512x8.ReducesTo [0, 1] S_
  bcast_S_S8 : S_.BroadcastsInDim S8 (![] : Fin 0 → Fin S8.rank)
  reducesTo_S8_S_d0 : S8.ReducesTo [0] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S8 .f32) (main_arg10 : FVec F S8 .f32) (main_v33 : IVec S_ 1) : IVec S_ 1 :=
  let main_v34 : FVec F S8 .f32 := Host.absf main_arg9
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8 .f32 := Host.absf main_arg10
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg6 : FVec F S8x16 .f32) (main_arg7 : FVec F S16 .f32) (main_arg8 : FVec F S512x8 .f32) (main_arg9 : FVec F S8 .f32) (main_arg10 : FVec F S8 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x16 .f32 := Host.absf main_arg6
  let main_cst_6 : FVec F S_ .f32 := constant S_ .f32 0x7F800000#32
  let main_v20 : FVec F S8x16 .f32 := broadcastInDim S8x16 ![] bcast_S_S8x16 main_cst_6
  let main_v21 : IVec S8x16 1 := cmpf .olt main_v19 main_v20
  let main_c_7 : IVec S_ 1 := constantI S_ 1 1#1
  let main_v22 : IVec S_ 1 := (fun x v => Host.reduce IntOp.andi x v reducesTo_S8x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S512x8 .f32 := Host.absf main_arg8
  let main_cst_10 : FVec F S_ .f32 := constant S_ .f32 0x7F800000#32
  let main_v30 : FVec F S512x8 .f32 := broadcastInDim S512x8 ![] bcast_S_S512x8 main_cst_10
  let main_v31 : IVec S512x8 1 := cmpf .olt main_v29 main_v30
  let main_c_11 : IVec S_ 1 := constantI S_ 1 1#1
  let main_v32 : IVec S_ 1 := (fun x v => Host.reduce IntOp.andi x v reducesTo_S512x8_S_d0_1 h_S_) main_v31 main_c_11
  let main_v33 : IVec S_ 1 := andi main_v28 main_v32
  fn_part2 (F := F) main_arg9 main_arg10 main_v33

def fn {F : FTy → Type} [FloatOps F] (main_arg0 : FVec F S100000x512 .f32) (main_arg1 : IVec S3200000 32) (main_arg2 : IVec S3200000 32) (main_arg3 : FVec F S3200000 .f32) (main_arg4 : FVec F S512x8 .f32) (main_arg5 : FVec F S8 .f32) (main_arg6 : FVec F S8x16 .f32) (main_arg7 : FVec F S16 .f32) (main_arg8 : FVec F S512x8 .f32) (main_arg9 : FVec F S8 .f32) (main_arg10 : FVec F S8 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x8 .f32 := Host.absf main_arg4
  let main_cst_2 : FVec F S_ .f32 := constant S_ .f32 0x7F800000#32
  let main_v10 : FVec F S512x8 .f32 := broadcastInDim S512x8 ![] bcast_S_S512x8 main_cst_2
  let main_v11 : IVec S512x8 1 := cmpf .olt main_v9 main_v10
  let main_c_3 : IVec S_ 1 := constantI S_ 1 1#1
  let main_v12 : IVec S_ 1 := (fun x v => Host.reduce IntOp.andi x v reducesTo_S512x8_S_d0_1 h_S_) main_v11 main_c_3
  let main_v13 : IVec S_ 1 := andi main_v8 main_v12
  let main_v14 : FVec F S8 .f32 := Host.absf main_arg5
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg6 main_arg7 main_arg8 main_arg9 main_arg10 main_v13 main_v16
-- ==== Kernel.lean ====
abbrev S100000x512 : Shape := ⟨2, ![100000, 512]⟩
abbrev S3200000 : Shape := ⟨1, ![3200000]⟩
abbrev S512x8 : Shape := ⟨2, ![512, 8]⟩
abbrev S8 : Shape := ⟨1, ![8]⟩
abbrev S8x16 : Shape := ⟨2, ![8, 16]⟩
abbrev S16 : Shape := ⟨1, ![16]⟩
abbrev S1x8 : Shape := ⟨2, ![1, 8]⟩
abbrev S100000x8 : Shape := ⟨2, ![100000, 8]⟩
abbrev S5000x512 : Shape := ⟨2, ![5000, 512]⟩
abbrev S5000x8 : Shape := ⟨2, ![5000, 8]⟩
abbrev S3200000x1 : Shape := ⟨2, ![3200000, 1]⟩
abbrev S_ : Shape := ⟨0, ![]⟩
abbrev S3200000x8 : Shape := ⟨2, ![3200000, 8]⟩
abbrev S100000x16 : Shape := ⟨2, ![100000, 16]⟩
abbrev S5000x16 : Shape := ⟨2, ![5000, 16]⟩
abbrev S3200000x16 : Shape := ⟨2, ![3200000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 61
  | .vmem => 21
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S512x8, .f32⟩
  | .hbm, ⟨5, _⟩ => ⟨S8, .f32⟩
  | .hbm, ⟨6, _⟩ => ⟨S8x16, .f32⟩
  | .hbm, ⟨7, _⟩ => ⟨S16, .f32⟩
  | .hbm, ⟨8, _⟩ => ⟨S512x8, .f32⟩
  | .hbm, ⟨9, _⟩ => ⟨S8, .f32⟩
  | .hbm, ⟨10, _⟩ => ⟨S8, .f32⟩
  | .hbm, ⟨11, _⟩ => ⟨S512x8, .f32⟩
  | .hbm, ⟨12, _⟩ => ⟨S1x8, .f32⟩
  | .hbm, ⟨13, _⟩ => ⟨S1x8, .f32⟩
  | .hbm, ⟨14, _⟩ => ⟨S100000x8, .f32⟩
  | .hbm, ⟨15, _⟩ => ⟨S100000x8, .f32⟩
  | .hbm, ⟨16, _⟩ => ⟨S3200000x1, .f32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x8, .f32⟩
  | .hbm, ⟨26, _⟩ => ⟨S3200000x8, .f32⟩
  | .hbm, ⟨27, _⟩ => ⟨S3200000x8, .f32⟩
  | .hbm, ⟨28, _⟩ => ⟨S_, .f32⟩
  | .hbm, ⟨29, _⟩ => ⟨S100000x8, .f32⟩
  | .hbm, ⟨30, _⟩ => ⟨S3200000x1, .i32⟩
  | .hbm, ⟨31, _⟩ => ⟨S100000x8, .f32⟩
  | .hbm, ⟨32, _⟩ => ⟨S1x8, .f32⟩
  | .hbm, ⟨33, _⟩ => ⟨S100000x8, .f32⟩
  | .hbm, ⟨34, _⟩ => ⟨S100000x8, .f32⟩
  | .hbm, ⟨35, _⟩ => ⟨S_, .f32⟩
  | .hbm, ⟨36, _⟩ => ⟨S100000x8, .f32⟩
  | .hbm, ⟨37, _⟩ => ⟨S100000x8, .f32⟩
  | .hbm, ⟨38, _⟩ => ⟨S100000x8, .f32⟩
  | .hbm, ⟨39, _⟩ => ⟨S_, .f32⟩
  | .hbm, ⟨40, _⟩ => ⟨S100000x8, .f32⟩
  | .hbm, ⟨41, _⟩ => ⟨S100000x8, .f32⟩
  | .hbm, ⟨42, _⟩ => ⟨S100000x16, .f32⟩
  | .hbm, ⟨43, _⟩ => ⟨S3200000x1, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x16, .f32⟩
  | .hbm, ⟨53, _⟩ => ⟨S3200000x16, .f32⟩
  | .hbm, ⟨54, _⟩ => ⟨S3200000x16, .f32⟩
  | .hbm, ⟨55, _⟩ => ⟨S_, .f32⟩
  | .hbm, ⟨56, _⟩ => ⟨S100000x16, .f32⟩
  | .hbm, ⟨57, _⟩ => ⟨S3200000x1, .i32⟩
  | .hbm, ⟨58, _⟩ => ⟨S100000x16, .f32⟩
  | .hbm, ⟨59, _⟩ => ⟨S1x16, .f32⟩
  | .hbm, ⟨60, _⟩ => ⟨S100000x16, .f32⟩
  | .local _ .vmem, ⟨0, _⟩ => ⟨S5000x512, .f32⟩
  | .local _ .vmem, ⟨1, _⟩ => ⟨S5000x512, .f32⟩
  | .local _ .vmem, ⟨2, _⟩ => ⟨S512x8, .f32⟩
  | .local _ .vmem, ⟨3, _⟩ => ⟨S512x8, .f32⟩
  | .local _ .vmem, ⟨4, _⟩ => ⟨S512x8, .f32⟩
  | .local _ .vmem, ⟨5, _⟩ => ⟨S1x8, .f32⟩
  | .local _ .vmem, ⟨6, _⟩ => ⟨S1x8, .f32⟩
  | .local _ .vmem, ⟨7, _⟩ => ⟨S5000x8, .f32⟩
  | .local _ .vmem, ⟨8, _⟩ => ⟨S5000x8, .f32⟩
  | .local _ .vmem, ⟨9, _⟩ => ⟨S5000x8, .f32⟩
  | .local _ .vmem, ⟨10, _⟩ => ⟨S5000x8, .f32⟩
  | .local _ .vmem, ⟨11, _⟩ => ⟨S5000x8, .f32⟩
  | .local _ .vmem, ⟨12, _⟩ => ⟨S5000x8, .f32⟩
  | .local _ .vmem, ⟨13, _⟩ => ⟨S8x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S1x16, .f32⟩
  | .local _ .vmem, ⟨19, _⟩ => ⟨S5000x16, .f32⟩
  | .local _ .vmem, ⟨20, _⟩ => ⟨S5000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_c_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S8_S1x8 : S8.ShapeCasts S1x8
  inb_S5000x512_S5000x512_0_0 : ∀ a, (![0, 0] : Fin 2 → Nat) a + S5000x512.size a ≤ S5000x512.size a
  h_S5000x512 : 0 < S5000x512.numel
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x8_0_1 : S3200000x1.BroadcastsInDim S3200000x8 (![0, 1] : Fin 2 → Fin S3200000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  shapeCasts_S5000x8_S5000x8 : S5000x8.ShapeCasts S5000x8
  inb_S8x16_S8x16_0_0 : ∀ a, (![0, 0] : Fin 2 → Nat) a + S8x16.size a ≤ S8x16.size a
  h_S8x16 : 0 < S8x16.numel
  inb_S5000x16_S5000x16_0_0 : ∀ a, (![0, 0] : Fin 2 → Nat) a + S5000x16.size a ≤ S5000x16.size a
  h_S5000x16 : 0 < S5000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  dot_S5000x512_S512x8_S5000x8_1_0_0_1_n_n_wf : DotDims.WF S5000x512 S512x8 S5000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  dot_S5000x8_S8x16_S5000x16_1_0_0_1_n_n_wf : DotDims.WF S5000x8 S8x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x8.size a ≤ S512x8.size a
  hwx0_1 : ∀ i : grid0.Coords, EltTy.bits .f32 = 32 ∨ (Rect.block (s := S512x8) S512x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x8.size a ≤ S512x8.size a
  hwx0_2 : ∀ i : grid0.Coords, EltTy.bits .f32 = 32 ∨ (Rect.block (s := S512x8) S512x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x8.size a ≤ S512x8.size a
  hwx0_3 : ∀ i : grid0.Coords, EltTy.bits .f32 = 32 ∨ (Rect.block (s := S512x8) S512x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8.size a ≤ S1x8.size a
  hwx0_5 : ∀ i : grid0.Coords, EltTy.bits .f32 = 32 ∨ (Rect.block (s := S1x8) S1x8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x8.size a ≤ S100000x8.size a
  hwx0_6 : ∀ i : grid0.Coords, EltTy.bits .f32 = 32 ∨ (Rect.block (s := S100000x8) S5000x8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x8.size a ≤ S100000x8.size a
  hwx0_7 : ∀ i : grid0.Coords, EltTy.bits .f32 = 32 ∨ (Rect.block (s := S100000x8) S5000x8.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x8.size a ≤ S100000x8.size a
  hwx1_0 : ∀ i : grid1.Coords, EltTy.bits .f32 = 32 ∨ (Rect.block (s := S100000x8) S5000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x16.size a ≤ S8x16.size a
  hwx1_1 : ∀ i : grid1.Coords, EltTy.bits .f32 = 32 ∨ (Rect.block (s := S8x16) S8x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)

variable [Facts₀]

def dot_S5000x512_S512x8_S5000x8_1_0_0_1_n_n : DotDims S5000x512 S512x8 S5000x8 where
  lhsContracting := [1]
  rhsContracting := [0]
  lhsNonContracting := [0]
  rhsNonContracting := [1]
  lhsBatch := []
  rhsBatch := []
  wf := dot_S5000x512_S512x8_S5000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S5000x8_S8x16_S5000x16_1_0_0_1_n_n : DotDims S5000x8 S8x16 S5000x16 where
  lhsContracting := [1]
  rhsContracting := [0]
  lhsNonContracting := [0]
  rhsNonContracting := [1]
  lhsBatch := []
  rhsBatch := []
  wf := dot_S5000x8_S8x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S512x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S5000x8.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S5000x8.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v23) S5000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S8x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v37) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S3200000 : Shape := ⟨1, ![3200000]⟩
abbrev S512x8 : Shape := ⟨2, ![512, 8]⟩
abbrev S8 : Shape := ⟨1, ![8]⟩
abbrev S8x16 : Shape := ⟨2, ![8, 16]⟩
abbrev S16 : Shape := ⟨1, ![16]⟩
abbrev S100000x8 : Shape := ⟨2, ![100000, 8]⟩
abbrev S3200000x1 : Shape := ⟨2, ![3200000, 1]⟩
abbrev S_ : Shape := ⟨0, ![]⟩
abbrev S3200000x8 : Shape := ⟨2, ![3200000, 8]⟩
abbrev S1x8 : Shape := ⟨2, ![1, 8]⟩
abbrev S100000x16 : Shape := ⟨2, ![100000, 16]⟩
abbrev S3200000x16 : Shape := ⟨2, ![3200000, 16]⟩
abbrev S1x16 : Shape := ⟨2, ![1, 16]⟩
abbrev S100000 : Shape := ⟨1, ![100000]⟩
abbrev S100000x1 : Shape := ⟨2, ![100000, 1]⟩

abbrev nBuf : Space → Nat
  | .hbm => 91
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S512x8, .f32⟩
  | .hbm, ⟨5, _⟩ => ⟨S8, .f32⟩
  | .hbm, ⟨6, _⟩ => ⟨S8x16, .f32⟩
  | .hbm, ⟨7, _⟩ => ⟨S16, .f32⟩
  | .hbm, ⟨8, _⟩ => ⟨S512x8, .f32⟩
  | .hbm, ⟨9, _⟩ => ⟨S8, .f32⟩
  | .hbm, ⟨10, _⟩ => ⟨S8, .f32⟩
  | .hbm, ⟨11, _⟩ => ⟨S100000x8, .f32⟩
  | .hbm, ⟨12, _⟩ => ⟨S3200000x1, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x8, .f32⟩
  | .hbm, ⟨22, _⟩ => ⟨S3200000x8, .f32⟩
  | .hbm, ⟨23, _⟩ => ⟨S3200000x8, .f32⟩
  | .hbm, ⟨24, _⟩ => ⟨S_, .f32⟩
  | .hbm, ⟨25, _⟩ => ⟨S100000x8, .f32⟩
  | .hbm, ⟨26, _⟩ => ⟨S3200000x1, .i32⟩
  | .hbm, ⟨27, _⟩ => ⟨S100000x8, .f32⟩
  | .hbm, ⟨28, _⟩ => ⟨S1x8, .f32⟩
  | .hbm, ⟨29, _⟩ => ⟨S100000x8, .f32⟩
  | .hbm, ⟨30, _⟩ => ⟨S100000x8, .f32⟩
  | .hbm, ⟨31, _⟩ => ⟨S_, .f32⟩
  | .hbm, ⟨32, _⟩ => ⟨S100000x8, .f32⟩
  | .hbm, ⟨33, _⟩ => ⟨S100000x8, .f32⟩
  | .hbm, ⟨34, _⟩ => ⟨S100000x8, .f32⟩
  | .hbm, ⟨35, _⟩ => ⟨S100000x512, .f32⟩
  | .hbm, ⟨36, _⟩ => ⟨S512x8, .f32⟩
  | .hbm, ⟨37, _⟩ => ⟨S100000x8, .f32⟩
  | .hbm, ⟨38, _⟩ => ⟨S100000x8, .f32⟩
  | .hbm, ⟨39, _⟩ => ⟨S100000x8, .f32⟩
  | .hbm, ⟨40, _⟩ => ⟨S_, .f32⟩
  | .hbm, ⟨41, _⟩ => ⟨S100000x8, .f32⟩
  | .hbm, ⟨42, _⟩ => ⟨S100000x8, .f32⟩
  | .hbm, ⟨43, _⟩ => ⟨S_, .f32⟩
  | .hbm, ⟨44, _⟩ => ⟨S100000x8, .f32⟩
  | .hbm, ⟨45, _⟩ => ⟨S100000x8, .f32⟩
  | .hbm, ⟨46, _⟩ => ⟨S1x8, .f32⟩
  | .hbm, ⟨47, _⟩ => ⟨S100000x8, .f32⟩
  | .hbm, ⟨48, _⟩ => ⟨S100000x8, .f32⟩
  | .hbm, ⟨49, _⟩ => ⟨S1x8, .f32⟩
  | .hbm, ⟨50, _⟩ => ⟨S100000x8, .f32⟩
  | .hbm, ⟨51, _⟩ => ⟨S100000x8, .f32⟩
  | .hbm, ⟨52, _⟩ => ⟨S100000x8, .f32⟩
  | .hbm, ⟨53, _⟩ => ⟨S_, .f32⟩
  | .hbm, ⟨54, _⟩ => ⟨S100000x8, .f32⟩
  | .hbm, ⟨55, _⟩ => ⟨S100000x8, .f32⟩
  | .hbm, ⟨56, _⟩ => ⟨S100000x16, .f32⟩
  | .hbm, ⟨57, _⟩ => ⟨S3200000x1, .f32⟩
  | .hbm, ⟨58, _⟩ => ⟨S_, .i32⟩
  | .hbm, ⟨59, _⟩ => ⟨S3200000, .i32⟩
  | .hbm, ⟨60, _⟩ => ⟨S3200000, .i1⟩
  | .hbm, ⟨61, _⟩ => ⟨S_, .i32⟩
  | .hbm, ⟨62, _⟩ => ⟨S3200000, .i32⟩
  | .hbm, ⟨63, _⟩ => ⟨S3200000, .i32⟩
  | .hbm, ⟨64, _⟩ => ⟨S3200000, .i32⟩
  | .hbm, ⟨65, _⟩ => ⟨S3200000x1, .i32⟩
  | .hbm, ⟨66, _⟩ => ⟨S3200000x16, .f32⟩
  | .hbm, ⟨67, _⟩ => ⟨S3200000x16, .f32⟩
  | .hbm, ⟨68, _⟩ => ⟨S3200000x16, .f32⟩
  | .hbm, ⟨69, _⟩ => ⟨S_, .f32⟩
  | .hbm, ⟨70, _⟩ => ⟨S100000x16, .f32⟩
  | .hbm, ⟨71, _⟩ => ⟨S3200000x1, .i32⟩
  | .hbm, ⟨72, _⟩ => ⟨S100000x16, .f32⟩
  | .hbm, ⟨73, _⟩ => ⟨S1x16, .f32⟩
  | .hbm, ⟨74, _⟩ => ⟨S100000x16, .f32⟩
  | .hbm, ⟨75, _⟩ => ⟨S100000x16, .f32⟩
  | .hbm, ⟨76, _⟩ => ⟨S_, .f32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000x1, .f32⟩
  | .hbm, ⟨82, _⟩ => ⟨S100000x16, .f32⟩
  | .hbm, ⟨83, _⟩ => ⟨S100000x16, .f32⟩
  | .hbm, ⟨84, _⟩ => ⟨S100000x16, .f32⟩
  | .hbm, ⟨85, _⟩ => ⟨S_, .f32⟩
  | .hbm, ⟨86, _⟩ => ⟨S100000, .f32⟩
  | .hbm, ⟨87, _⟩ => ⟨S100000x1, .f32⟩
  | .hbm, ⟨88, _⟩ => ⟨S100000x1, .f32⟩
  | .hbm, ⟨89, _⟩ => ⟨S100000x16, .f32⟩
  | .hbm, ⟨90, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_call1_cst : Ref sig .tc := ⟨.hbm, 43, rfl⟩
abbrev main_call1_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_3 : Ref sig .tc := ⟨.hbm, 58, rfl⟩
abbrev main_v38 : Ref sig .tc := ⟨.hbm, 59, rfl⟩
abbrev main_v39 : Ref sig .tc := ⟨.hbm, 60, rfl⟩
abbrev main_c_4 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_5 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call2_cst : Ref sig .tc := ⟨.hbm, 76, rfl⟩
abbrev main_call2_v0 : Ref sig .tc := ⟨.hbm, 77, rfl⟩
abbrev main_call2_cst_0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_cst_1 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_v53 : Ref sig .tc := ⟨.hbm, 90, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x8_0_1 : S3200000x1.BroadcastsInDim S3200000x8 (![0, 1] : Fin 2 → Fin S3200000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x512_S512x8_S100000x8_1_0_0_1_n_n_wf : DotDims.WF S100000x512 S512x8 S100000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  dot_S100000x8_S8x16_S100000x16_1_0_0_1_n_n_wf : DotDims.WF S100000x8 S8x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def dot_S100000x512_S512x8_S100000x8_1_0_0_1_n_n : DotDims S100000x512 S512x8 S100000x8 where
  lhsContracting := [1]
  rhsContracting := [0]
  lhsNonContracting := [0]
  rhsNonContracting := [1]
  lhsBatch := []
  rhsBatch := []
  wf := dot_S100000x512_S512x8_S100000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S100000x8_S8x16_S100000x16_1_0_0_1_n_n : DotDims S100000x8 S8x16 S100000x16 where
  lhsContracting := [1]
  rhsContracting := [0]
  lhsNonContracting := [0]
  rhsNonContracting := [1]
  lhsBatch := []
  rhsBatch := []
  wf := dot_S100000x8_S8x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.Tiles.lean ====
/-
  The geometry of the three pipelines' windows. Every pipeline walks twenty grid points; at point t a row-tiled window
  (the x tile, and every intermediate and output tile) holds rows 5000·t … 5000·t + 4999 of its array, all columns,
  and a small operand's window holds the whole operand at every point. So entry (r, k) of a tile is entry
  (5000·t + r, k) of the array, entry (a, b) of a small operand's block is entry (a, b) of the operand, and the
  output tiles of the twenty points cover their array: row R lies in the tile of point R / 5000.
-/
import proofs.«173160_j52012053955018_1_alg».proof.Proof.Gen.KernelIdeal.Frame
import Idealize.ShloMosaic.Lib.Pipeline.Value
import Idealize.ShloMosaic.Lib.ValueIdx

set_option maxRecDepth 16384

noncomputable section

namespace Cert.KernelIdeal.Tiles

open Cert.KernelIdeal Cert.KernelIdeal.Gen Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- Row r of the tile of point t is row 5000·t + r of the array. -/
def row (t : Fin 20) (r : Fin 5000) : Fin 100000 := ⟨t.val * 5000 + r.val, by have := t.isLt; have := r.isLt; omega⟩

theorem row_val (t : Fin 20) (r : Fin 5000) : (row t r).val = t.val * 5000 + r.val := rfl

/-! ## Pipeline 0 -/

theorem N0 : cfg0.N = 20 := N_0

theorem idx0_0_0 : ∀ t : Fin cfg0.N, win0_0.index t (0 : Fin 2) = t.val := (by decide +kernel : ∀ t : Fin grid0.N, _)
theorem idx0_0_1 : ∀ t : Fin cfg0.N, win0_0.index t (1 : Fin 2) = 0 := (by decide +kernel : ∀ t : Fin grid0.N, _)
/-- Entry (r, k) of window 0's tile at point t, in the array. -/
theorem emb0_0 (t : Fin cfg0.N) (r : Fin 5000) (k : Fin 512) :
    ((cfg0.win 0).blk t).view.emb (ix2 r k) = ix2 (row ⟨t.val, by have := t.isLt; have := N0; omega⟩ r) k := by
  have e0 := idx0_0_0 t
  have e1 := idx0_0_1 t
  funext a; apply Fin.ext
  match a with
  | ⟨0, _⟩ => show win0_0.index t (0 : Fin 2) * 5000 + 1 * r.val = t.val * 5000 + r.val; omega
  | ⟨1, _⟩ => show win0_0.index t (1 : Fin 2) * 512 + 1 * k.val = k.val; omega

theorem idx0_1_0 : ∀ t : Fin cfg0.N, win0_1.index t (0 : Fin 2) = 0 := (by decide +kernel : ∀ t : Fin grid0.N, _)
theorem idx0_1_1 : ∀ t : Fin cfg0.N, win0_1.index t (1 : Fin 2) = 0 := (by decide +kernel : ∀ t : Fin grid0.N, _)
/-- Entry (a, b) of window 1's block, the whole operand at every point. -/
theorem emb0_1 (t : Fin cfg0.N) (a : Fin 512) (b : Fin 8) :
    ((cfg0.win 1).blk t).view.emb (ix2 a b) = ix2 a b := by
  have e0 := idx0_1_0 t
  have e1 := idx0_1_1 t
  funext d; apply Fin.ext
  match d with
  | ⟨0, _⟩ => show win0_1.index t (0 : Fin 2) * 512 + 1 * a.val = a.val; omega
  | ⟨1, _⟩ => show win0_1.index t (1 : Fin 2) * 8 + 1 * b.val = b.val; omega

theorem idx0_2_0 : ∀ t : Fin cfg0.N, win0_2.index t (0 : Fin 2) = 0 := (by decide +kernel : ∀ t : Fin grid0.N, _)
theorem idx0_2_1 : ∀ t : Fin cfg0.N, win0_2.index t (1 : Fin 2) = 0 := (by decide +kernel : ∀ t : Fin grid0.N, _)
/-- Entry (a, b) of window 2's block, the whole operand at every point. -/
theorem emb0_2 (t : Fin cfg0.N) (a : Fin 512) (b : Fin 8) :
    ((cfg0.win 2).blk t).view.emb (ix2 a b) = ix2 a b := by
  have e0 := idx0_2_0 t
  have e1 := idx0_2_1 t
  funext d; apply Fin.ext
  match d with
  | ⟨0, _⟩ => show win0_2.index t (0 : Fin 2) * 512 + 1 * a.val = a.val; omega
  | ⟨1, _⟩ => show win0_2.index t (1 : Fin 2) * 8 + 1 * b.val = b.val; omega

theorem idx0_3_0 : ∀ t : Fin cfg0.N, win0_3.index t (0 : Fin 2) = 0 := (by decide +kernel : ∀ t : Fin grid0.N, _)
theorem idx0_3_1 : ∀ t : Fin cfg0.N, win0_3.index t (1 : Fin 2) = 0 := (by decide +kernel : ∀ t : Fin grid0.N, _)
/-- Entry (a, b) of window 3's block, the whole operand at every point. -/
theorem emb0_3 (t : Fin cfg0.N) (a : Fin 512) (b : Fin 8) :
    ((cfg0.win 3).blk t).view.emb (ix2 a b) = ix2 a b := by
  have e0 := idx0_3_0 t
  have e1 := idx0_3_1 t
  funext d; apply Fin.ext
  match d with
  | ⟨0, _⟩ => show win0_3.index t (0 : Fin 2) * 512 + 1 * a.val = a.val; omega
  | ⟨1, _⟩ => show win0_3.index t (1 : Fin 2) * 8 + 1 * b.val = b.val; omega

theorem idx0_4_0 : ∀ t : Fin cfg0.N, win0_4.index t (0 : Fin 2) = 0 := (by decide +kernel : ∀ t : Fin grid0.N, _)
theorem idx0_4_1 : ∀ t : Fin cfg0.N, win0_4.index t (1 : Fin 2) = 0 := (by decide +kernel : ∀ t : Fin grid0.N, _)
/-- Entry (a, b) of window 4's block, the whole operand at every point. -/
theorem emb0_4 (t : Fin cfg0.N) (a : Fin 1) (b : Fin 8) :
    ((cfg0.win 4).blk t).view.emb (ix2 a b) = ix2 a b := by
  have e0 := idx0_4_0 t
  have e1 := idx0_4_1 t
  funext d; apply Fin.ext
  match d with
  | ⟨0, _⟩ => show win0_4.index t (0 : Fin 2) * 1 + 1 * a.val = a.val; omega
  | ⟨1, _⟩ => show win0_4.index t (1 : Fin 2) * 8 + 1 * b.val = b.val; omega

theorem idx0_5_0 : ∀ t : Fin cfg0.N, win0_5.index t (0 : Fin 2) = 0 := (by decide +kernel : ∀ t : Fin grid0.N, _)
theorem idx0_5_1 : ∀ t : Fin cfg0.N, win0_5.index t (1 : Fin 2) = 0 := (by decide +kernel : ∀ t : Fin grid0.N, _)
/-- Entry (a, b) of window 5's block, the whole operand at every point. -/
theorem emb0_5 (t : Fin cfg0.N) (a : Fin 1) (b : Fin 8) :
    ((cfg0.win 5).blk t).view.emb (ix2 a b) = ix2 a b := by
  have e0 := idx0_5_0 t
  have e1 := idx0_5_1 t
  funext d; apply Fin.ext
  match d with
  | ⟨0, _⟩ => show win0_5.index t (0 : Fin 2) * 1 + 1 * a.val = a.val; omega
  | ⟨1, _⟩ => show win0_5.index t (1 : Fin 2) * 8 + 1 * b.val = b.val; omega

theorem idx0_6_0 : ∀ t : Fin cfg0.N, win0_6.index t (0 : Fin 2) = t.val := (by decide +kernel : ∀ t : Fin grid0.N, _)
theorem idx0_6_1 : ∀ t : Fin cfg0.N, win0_6.index t (1 : Fin 2) = 0 := (by decide +kernel : ∀ t : Fin grid0.N, _)
/-- Entry (r, k) of window 6's tile at point t, in the array. -/
theorem emb0_6 (t : Fin cfg0.N) (r : Fin 5000) (k : Fin 8) :
    ((cfg0.win 6).blk t).view.emb (ix2 r k) = ix2 (row ⟨t.val, by have := t.isLt; have := N0; omega⟩ r) k := by
  have e0 := idx0_6_0 t
  have e1 := idx0_6_1 t
  funext a; apply Fin.ext
  match a with
  | ⟨0, _⟩ => show win0_6.index t (0 : Fin 2) * 5000 + 1 * r.val = t.val * 5000 + r.val; omega
  | ⟨1, _⟩ => show win0_6.index t (1 : Fin 2) * 8 + 1 * k.val = k.val; omega
/-- An index of the array is in point t's tile of window 6 iff each coordinate is in the tile's range. -/
theorem mem_blk0_6 (t : Fin cfg0.N) (i : S100000x8.Idx) :
    i ∈ ((cfg0.win 6).blk t).view.set ↔ ∀ a : Fin 2, win0_6.index t a * S5000x8.size a ≤ (i a).val ∧ (i a).val < win0_6.index t a * S5000x8.size a + S5000x8.size a := by
  show i ∈ ((View.whole main_v3_0).slice (win0_6.rect t)).set ↔ _
  rw [View.set_slice_whole, Rect.mem_set_unit]
  exact Iff.rfl

/-- The twenty tiles of window 6 cover its array: row R is in the tile of point R / 5000. -/
theorem cover0_6 (i : S100000x8.Idx) :
    ∃ t : Fin cfg0.N, (cfg0.win 6).flush t = true ∧ i ∈ ((cfg0.win 6).blk t).view.set := by
  have hi0 : (i 0).val < 100000 := (i 0).isLt
  have hi1 : (i 1).val < 8 := (i 1).isLt
  have hN := N0
  have ht : (i 0).val / 5000 < cfg0.N := by omega
  refine ⟨⟨(i 0).val / 5000, ht⟩, flush0_6 _, ?_⟩
  rw [mem_blk0_6]
  have e0 := idx0_6_0 ⟨(i 0).val / 5000, ht⟩
  have e1 := idx0_6_1 ⟨(i 0).val / 5000, ht⟩
  have et : (⟨(i 0).val / 5000, ht⟩ : Fin cfg0.N).val = (i 0).val / 5000 := rfl
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    omega
  | ⟨1, _⟩ =>
    show win0_6.index ⟨(i 0).val / 5000, ht⟩ (1 : Fin 2) * 8 ≤ (i 1).val ∧ (i 1).val < win0_6.index ⟨(i 0).val / 5000, ht⟩ (1 : Fin 2) * 8 + 8
    omega

theorem idx0_7_0 : ∀ t : Fin cfg0.N, win0_7.index t (0 : Fin 2) = t.val := (by decide +kernel : ∀ t : Fin grid0.N, _)
theorem idx0_7_1 : ∀ t : Fin cfg0.N, win0_7.index t (1 : Fin 2) = 0 := (by decide +kernel : ∀ t : Fin grid0.N, _)
/-- Entry (r, k) of window 7's tile at point t, in the array. -/
theorem emb0_7 (t : Fin cfg0.N) (r : Fin 5000) (k : Fin 8) :
    ((cfg0.win 7).blk t).view.emb (ix2 r k) = ix2 (row ⟨t.val, by have := t.isLt; have := N0; omega⟩ r) k := by
  have e0 := idx0_7_0 t
  have e1 := idx0_7_1 t
  funext a; apply Fin.ext
  match a with
  | ⟨0, _⟩ => show win0_7.index t (0 : Fin 2) * 5000 + 1 * r.val = t.val * 5000 + r.val; omega
  | ⟨1, _⟩ => show win0_7.index t (1 : Fin 2) * 8 + 1 * k.val = k.val; omega
/-- An index of the array is in point t's tile of window 7 iff each coordinate is in the tile's range. -/
theorem mem_blk0_7 (t : Fin cfg0.N) (i : S100000x8.Idx) :
    i ∈ ((cfg0.win 7).blk t).view.set ↔ ∀ a : Fin 2, win0_7.index t a * S5000x8.size a ≤ (i a).val ∧ (i a).val < win0_7.index t a * S5000x8.size a + S5000x8.size a := by
  show i ∈ ((View.whole main_v3_1).slice (win0_7.rect t)).set ↔ _
  rw [View.set_slice_whole, Rect.mem_set_unit]
  exact Iff.rfl

/-- The twenty tiles of window 7 cover its array: row R is in the tile of point R / 5000. -/
theorem cover0_7 (i : S100000x8.Idx) :
    ∃ t : Fin cfg0.N, (cfg0.win 7).flush t = true ∧ i ∈ ((cfg0.win 7).blk t).view.set := by
  have hi0 : (i 0).val < 100000 := (i 0).isLt
  have hi1 : (i 1).val < 8 := (i 1).isLt
  have hN := N0
  have ht : (i 0).val / 5000 < cfg0.N := by omega
  refine ⟨⟨(i 0).val / 5000, ht⟩, flush0_7 _, ?_⟩
  rw [mem_blk0_7]
  have e0 := idx0_7_0 ⟨(i 0).val / 5000, ht⟩
  have e1 := idx0_7_1 ⟨(i 0).val / 5000, ht⟩
  have et : (⟨(i 0).val / 5000, ht⟩ : Fin cfg0.N).val = (i 0).val / 5000 := rfl
  intro a
  match a with
  | ⟨0, _⟩ =>
    show win0_7.index ⟨(i 0).val / 5000, ht⟩ (0 : Fin 2) * 5000 ≤ (i 0).val ∧ (i 0).val < win0_7.index ⟨(i 0).val / 5000, ht⟩ (0 : Fin 2) * 5000 + 5000
    omega
  | ⟨1, _⟩ =>
    show win0_7.index ⟨(i 0).val / 5000, ht⟩ (1 : Fin 2) * 8 ≤ (i 1).val ∧ (i 1).val < win0_7.index ⟨(i 0).val / 5000, ht⟩ (1 : Fin 2) * 8 + 8
    omega

/-! ## Pipeline 1 -/

theorem N1 : cfg1.N = 20 := N_1

theorem idx1_0_0 : ∀ t : Fin cfg1.N, win1_0.index t (0 : Fin 2) = t.val := (by decide +kernel : ∀ t : Fin grid1.N, _)
theorem idx1_0_1 : ∀ t : Fin cfg1.N, win1_0.index t (1 : Fin 2) = 0 := (by decide +kernel : ∀ t : Fin grid1.N, _)
/-- Entry (r, k) of window 0's tile at point t, in the array. -/
theorem emb1_0 (t : Fin cfg1.N) (r : Fin 5000) (k : Fin 8) :
    ((cfg1.win 0).blk t).view.emb (ix2 r k) = ix2 (row ⟨t.val, by have := t.isLt; have := N1; omega⟩ r) k := by
  have e0 := idx1_0_0 t
  have e1 := idx1_0_1 t
  funext a; apply Fin.ext
  match a with
  | ⟨0, _⟩ => show win1_0.index t (0 : Fin 2) * 5000 + 1 * r.val = t.val * 5000 + r.val; omega
  | ⟨1, _⟩ => show win1_0.index t (1 : Fin 2) * 8 + 1 * k.val = k.val; omega

theorem idx1_1_0 : ∀ t : Fin cfg1.N, win1_1.index t (0 : Fin 2) = 0 := (by decide +kernel : ∀ t : Fin grid1.N, _)
theorem idx1_1_1 : ∀ t : Fin cfg1.N, win1_1.index t (1 : Fin 2) = 0 := (by decide +kernel : ∀ t : Fin grid1.N, _)
/-- Entry (a, b) of window 1's block, the whole operand at every point. -/
theorem emb1_1 (t : Fin cfg1.N) (a : Fin 8) (b : Fin 16) :
    ((cfg1.win 1).blk t).view.emb (ix2 a b) = ix2 a b := by
  have e0 := idx1_1_0 t
  have e1 := idx1_1_1 t
  funext d; apply Fin.ext
  match d with
  | ⟨0, _⟩ => show win1_1.index t (0 : Fin 2) * 8 + 1 * a.val = a.val; omega
  | ⟨1, _⟩ => show win1_1.index t (1 : Fin 2) * 16 + 1 * b.val = b.val; omega

theorem idx1_2_0 : ∀ t : Fin cfg1.N, win1_2.index t (0 : Fin 2) = t.val := (by decide +kernel : ∀ t : Fin grid1.N, _)
theorem idx1_2_1 : ∀ t : Fin cfg1.N, win1_2.index t (1 : Fin 2) = 0 := (by decide +kernel : ∀ t : Fin grid1.N, _)
/-- Entry (r, k) of window 2's tile at point t, in the array. -/
theorem emb1_2 (t : Fin cfg1.N) (r : Fin 5000) (k : Fin 16) :
    ((cfg1.win 2).blk t).view.emb (ix2 r k) = ix2 (row ⟨t.val, by have := t.isLt; have := N1; omega⟩ r) k := by
  have e0 := idx1_2_0 t
  have e1 := idx1_2_1 t
  funext a; apply Fin.ext
  match a with
  | ⟨0, _⟩ => show win1_2.index t (0 : Fin 2) * 5000 + 1 * r.val = t.val * 5000 + r.val; omega
  | ⟨1, _⟩ => show win1_2.index t (1 : Fin 2) * 16 + 1 * k.val = k.val; omega
/-- An index of the array is in point t's tile of window 2 iff each coordinate is in the tile's range. -/
theorem mem_blk1_2 (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v24).slice (win1_2.rect t)).set ↔ _
  rw [View.set_slice_whole, Rect.mem_set_unit]
  exact Iff.rfl

/-- The twenty tiles of window 2 cover its array: row R is in the tile of point R / 5000. -/
theorem cover1_2 (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN := N1
  have ht : (i 0).val / 5000 < cfg1.N := by omega
  refine ⟨⟨(i 0).val / 5000, ht⟩, flush1_2 _, ?_⟩
  rw [mem_blk1_2]
  have e0 := idx1_2_0 ⟨(i 0).val / 5000, ht⟩
  have e1 := idx1_2_1 ⟨(i 0).val / 5000, ht⟩
  have et : (⟨(i 0).val / 5000, ht⟩ : Fin cfg1.N).val = (i 0).val / 5000 := rfl
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    omega
  | ⟨1, _⟩ =>
    show win1_2.index ⟨(i 0).val / 5000, ht⟩ (1 : Fin 2) * 16 ≤ (i 1).val ∧ (i 1).val < win1_2.index ⟨(i 0).val / 5000, ht⟩ (1 : Fin 2) * 16 + 16
    omega

/-! ## Pipeline 2 -/

theorem N2 : cfg2.N = 20 := N_2

theorem idx2_0_0 : ∀ t : Fin cfg2.N, win2_0.index t (0 : Fin 2) = t.val := (by decide +kernel : ∀ t : Fin grid2.N, _)
theorem idx2_0_1 : ∀ t : Fin cfg2.N, win2_0.index t (1 : Fin 2) = 0 := (by decide +kernel : ∀ t : Fin grid2.N, _)
/-- Entry (r, k) of window 0's tile at point t, in the array. -/
theorem emb2_0 (t : Fin cfg2.N) (r : Fin 5000) (k : Fin 16) :
    ((cfg2.win 0).blk t).view.emb (ix2 r k) = ix2 (row ⟨t.val, by have := t.isLt; have := N2; omega⟩ r) k := by
  have e0 := idx2_0_0 t
  have e1 := idx2_0_1 t
  funext a; apply Fin.ext
  match a with
  | ⟨0, _⟩ => show win2_0.index t (0 : Fin 2) * 5000 + 1 * r.val = t.val * 5000 + r.val; omega
  | ⟨1, _⟩ => show win2_0.index t (1 : Fin 2) * 16 + 1 * k.val = k.val; omega

theorem idx2_1_0 : ∀ t : Fin cfg2.N, win2_1.index t (0 : Fin 2) = 0 := (by decide +kernel : ∀ t : Fin grid2.N, _)
theorem idx2_1_1 : ∀ t : Fin cfg2.N, win2_1.index t (1 : Fin 2) = 0 := (by decide +kernel : ∀ t : Fin grid2.N, _)
/-- Entry (a, b) of window 1's block, the whole operand at every point. -/
theorem emb2_1 (t : Fin cfg2.N) (a : Fin 1) (b : Fin 16) :
    ((cfg2.win 1).blk t).view.emb (ix2 a b) = ix2 a b := by
  have e0 := idx2_1_0 t
  have e1 := idx2_1_1 t
  funext d; apply Fin.ext
  match d with
  | ⟨0, _⟩ => show win2_1.index t (0 : Fin 2) * 1 + 1 * a.val = a.val; omega
  | ⟨1, _⟩ => show win2_1.index t (1 : Fin 2) * 16 + 1 * b.val = b.val; omega

theorem idx2_2_0 : ∀ t : Fin cfg2.N, win2_2.index t (0 : Fin 2) = t.val := (by decide +kernel : ∀ t : Fin grid2.N, _)
theorem idx2_2_1 : ∀ t : Fin cfg2.N, win2_2.index t (1 : Fin 2) = 0 := (by decide +kernel : ∀ t : Fin grid2.N, _)
/-- Entry (r, k) of window 2's tile at point t, in the array. -/
theorem emb2_2 (t : Fin cfg2.N) (r : Fin 5000) (k : Fin 16) :
    ((cfg2.win 2).blk t).view.emb (ix2 r k) = ix2 (row ⟨t.val, by have := t.isLt; have := N2; omega⟩ r) k := by
  have e0 := idx2_2_0 t
  have e1 := idx2_2_1 t
  funext a; apply Fin.ext
  match a with
  | ⟨0, _⟩ => show win2_2.index t (0 : Fin 2) * 5000 + 1 * r.val = t.val * 5000 + r.val; omega
  | ⟨1, _⟩ => show win2_2.index t (1 : Fin 2) * 16 + 1 * k.val = k.val; omega
/-- An index of the array is in point t's tile of window 2 iff each coordinate is in the tile's range. -/
theorem mem_blk2_2 (t : Fin cfg2.N) (i : S100000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v39).slice (win2_2.rect t)).set ↔ _
  rw [View.set_slice_whole, Rect.mem_set_unit]
  exact Iff.rfl

/-- The twenty tiles of window 2 cover its array: row R is in the tile of point R / 5000. -/
theorem cover2_2 (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN := N2
  have ht : (i 0).val / 5000 < cfg2.N := by omega
  refine ⟨⟨(i 0).val / 5000, ht⟩, flush2_2 _, ?_⟩
  rw [mem_blk2_2]
  have e0 := idx2_2_0 ⟨(i 0).val / 5000, ht⟩
  have e1 := idx2_2_1 ⟨(i 0).val / 5000, ht⟩
  have et : (⟨(i 0).val / 5000, ht⟩ : Fin cfg2.N).val = (i 0).val / 5000 := rfl
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    omega
  | ⟨1, _⟩ =>
    show win2_2.index ⟨(i 0).val / 5000, ht⟩ (1 : Fin 2) * 16 ≤ (i 1).val ∧ (i 1).val < win2_2.index ⟨(i 0).val / 5000, ht⟩ (1 : Fin 2) * 16 + 16
    omega

end Cert.KernelIdeal.Tiles

end
-- ==== Proof.Spec.lean ====
/-
  The entries of the three dense stages, each as a function of the ROWS and COLUMNS it depends on, over the extended
  reals. Both programs compute these same entries: the kernel tile by tile (5000 rows at a time), the reference on the
  whole arrays; a tile's row is a row of the whole array, so an entry does not see the tiling.

  * `dot a b`        the inner product `∑ k, a k * b k` of a row with a column (any order of summation is this sum);
  * `fm`             one entry of the factorisation-machine branch followed by the affine map:
                      `g * max (½ * ((x·v)² - (x²)·(v²))) 0 + b`;
  * `lsm v j`        entry `j` of the log-softmax of the row `v`: with `μ = max (-∞) (max_k v k)`,
                      `(v j - μ) - log (∑ k, exp (v k - μ))`.
  The three float literals (½, 0, -∞) are kept as the words both programs print; neither side evaluates them.
-/
import Idealize.ShloMosaic.PureOps.Ideal
import Idealize.ShloMosaic.PureOps.Ideal.Laws
import Idealize.ShloMosaic.Lib.ValueIdx

noncomputable section

namespace Cert.Spec

open Idealize.ShloMosaic

/-- One half, as the f32 word both programs print. -/
def half : EReal := Ideal.ofBits .f32 0x3F000000#32
/-- Zero, as the f32 word both programs print. -/
def zero : EReal := Ideal.ofBits .f32 0x00000000#32
/-- Minus infinity, as the f32 word both programs print. -/
def negInf : EReal := Ideal.ofBits .f32 0xFF800000#32

/-- The inner product of a row with a column. -/
def dot {K : ℕ} (a b : Fin K → EReal) : EReal := ∑ k : Fin K, a k * b k

/-- One entry of the bi-interaction branch: from a row `xr` of `x`, a column `vc` of `V`, the same column `v2c` of
    `V * V`, and the entries `g`, `b` of the scale and the shift. -/
def fm (xr vc v2c : Fin 512 → EReal) (g b : EReal) : EReal :=
  g * max (half * (dot xr vc * dot xr vc - dot (fun k => xr k * xr k) v2c)) zero + b

/-- The shift a row's log-softmax subtracts: the row's maximum, taken from `-∞` and once more against `-∞`. -/
def rowMax (v : Fin 16 → EReal) : EReal := max negInf ((Finset.univ : Finset (Fin 16)).fold max negInf v)

/-- Entry `j` of the log-softmax of the row `v`. -/
def lsm (v : Fin 16 → EReal) (j : Fin 16) : EReal :=
  (v j - rowMax v) - Ideal.log (∑ k : Fin 16, Ideal.exp (v k - rowMax v))

end Cert.Spec

end
-- ==== Proof.Dots.lean ====
/-
  A matrix product read at an entry. With the plain dimension numbers (rows × contraction times contraction × columns,
  no batch axis) the kernel's `tpu.matmul` into a zero accumulator and the host's `dot_general` are both, at entry
  (r, j), the inner product of row r of the left operand with column j of the right one:
  `∑ k, x (r, k) * w (k, j)`. The sum over the one-axis contraction index is re-indexed by its one coordinate.
-/
import Idealize.ShloMosaic.PureOps.Ideal.Laws
import Idealize.ShloMosaic.Lib.ValueIdx

noncomputable section

namespace Cert.Dots

open Idealize.ShloMosaic Idealize.ShloMosaic.ValueIdx

/-- The contraction sum of the plain dimension numbers at entry (r, j) is the sum over the shared coordinate. -/
theorem plain_sum {M K N : ℕ} (x : (⟨2, ![M, K]⟩ : Shape).Idx → EReal) (w : (⟨2, ![K, N]⟩ : Shape).Idx → EReal)
    (r : Fin M) (j : Fin N) :
    (∑ q : (DotDims.plain M K N).contr.Idx,
        x ((DotDims.plain M K N).lhsIdx (ix2 r j) q) * w ((DotDims.plain M K N).rhsIdx (ix2 r j) q))
      = ∑ k : Fin K, x (ix2 r k) * w (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl (ix2 r j) _).trans hk)
  have er : (DotDims.plain M K N).rhsIdx (ix2 r j) ((contrEquiv1 (DotDims.plain M K N) K rfl rfl).symm k) = ix2 k j :=
    funext fun a => Fin.ext (by
      match a with
      | ⟨0, _⟩ => exact ((DotDims.plain M K N).rhsIdx_val_of_single rfl (ix2 r j) _).trans hk
      | ⟨1, _⟩ => rfl)
  rw [el, er]

/-- A kernel's matrix product into the zero splat, at entry (r, j): row r of `x` against column j of `w`. -/
theorem matmul_entry {M K N : ℕ} (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (r : Fin M) (j : Fin N) :
    matmul d none x w (constant ⟨2, ![M, N]⟩ .f32 0x00000000#32) (ix2 r j) = ∑ k : Fin K, x (ix2 r k) * w (ix2 k j) := by
  subst hd
  exact (Ideal.matmul_constant_zero_apply _ none x w (ix2 r j)).trans (plain_sum x w r j)

/-- The host's matrix product at entry (r, j): the same inner product. -/
theorem dotGeneral_entry {M K N : ℕ} (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (r : Fin M) (j : Fin N) :
    Host.dotGeneral d none x w (ix2 r j) = ∑ k : Fin K, x (ix2 r k) * w (ix2 k j) := by
  subst hd
  exact (Ideal.dotGeneral_apply _ none _ x w (ix2 r j)).trans (plain_sum x w r j)

end Cert.Dots

end
-- ==== Proof.LibLayoutCols.lean ====
/-
  Layout operations of small rank read at an index written by coordinates: the forms a kernel meets when it keeps a
  reduced axis as a unit axis (`keepdims`) and when it expands a matrix over a new middle axis.

  * a vector of length `a` cast to a column `[a, 1]`;
  * a column `[a, 1]` broadcast along its unit axis to `[a, b]`;
  * a matrix `[a, b]` cast to `[a, 1, b]`, and that broadcast along the new axis to `[a, k, b]`;
  * a column `[k, 1]` cast to `[1, k, 1]`, and that broadcast along both unit axes to `[a, k, b]`.
  A cast keeps the row-major position of an element; a broadcast reads coordinate `0` on the operand's unit axes.
-/
import Idealize.ShloMosaic.Lib.Pipeline.Value
import Idealize.ShloMosaic.Lib.ValueIdx

namespace Cert.LibLayoutCols

open Idealize.ShloMosaic Idealize.ShloMosaic.ValueIdx

variable {α : Type}

/-- A vector of length `a` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix `[a, b]` cast to `[a, 1, b]` reads, at `(p, u, c)`, the matrix at `(p, c)`. -/
theorem shapeCast_ab_a1b_apply {a b : ℕ} (x : (⟨2, ![a, b]⟩ : Shape).Idx → α) (h : (⟨2, ![a, b]⟩ : Shape).ShapeCasts ⟨3, ![a, 1, b]⟩)
    (p : Fin a) (u : Fin 1) (c : Fin b) : shapeCast ⟨3, ![a, 1, b]⟩ x h (ix3 p u c) = x (ix2 p c) :=
  shapeCast_apply x h _ _ (by
    have hu : u.val = 0 := by omega
    rw [Shape.rowMajor_val_three, Shape.rowMajor_val_two]
    show p.val * b + c.val = (p.val * 1 + u.val) * b + c.val
    rw [hu, Nat.mul_one, Nat.add_zero])

/-- An array `[a, 1, b]` broadcast to `[a, k, b]` reads, at `(p, q, c)`, the operand at `(p, 0, c)`. -/
theorem broadcastTo_a1b_akb_apply {a k b : ℕ} (x : (⟨3, ![a, 1, b]⟩ : Shape).Idx → α)
    (h : (⟨3, ![a, 1, b]⟩ : Shape).Broadcasts ⟨3, ![a, k, b]⟩) (p : Fin a) (q : Fin k) (c : Fin b) :
    broadcastTo ⟨3, ![a, k, b]⟩ x h (ix3 p q c) = x (ix3 p (0 : Fin 1) c) := by
  refine broadcastTo_apply x h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

/-- A column `[k, 1]` cast to `[1, k, 1]` reads, at `(u, q, w)`, the column at row `q`. -/
theorem shapeCast_k1_1k1_apply {k : ℕ} (x : (⟨2, ![k, 1]⟩ : Shape).Idx → α) (h : (⟨2, ![k, 1]⟩ : Shape).ShapeCasts ⟨3, ![1, k, 1]⟩)
    (u : Fin 1) (q : Fin k) (w : Fin 1) : shapeCast ⟨3, ![1, k, 1]⟩ x h (ix3 u q w) = x (ix2 q (0 : Fin 1)) :=
  shapeCast_apply x h _ _ (by
    have hu : u.val = 0 := by omega
    have hw : w.val = 0 := by omega
    rw [Shape.rowMajor_val_three, Shape.rowMajor_val_two]
    show q.val * 1 + 0 = (u.val * k + q.val) * 1 + w.val
    rw [hu, hw, Nat.zero_mul, Nat.zero_add])

/-- An array `[1, k, 1]` broadcast to `[a, k, b]` reads, at `(p, q, c)`, the operand at `(0, q, 0)`. -/
theorem broadcastTo_1k1_akb_apply {a k b : ℕ} (x : (⟨3, ![1, k, 1]⟩ : Shape).Idx → α)
    (h : (⟨3, ![1, k, 1]⟩ : Shape).Broadcasts ⟨3, ![a, k, b]⟩) (p : Fin a) (q : Fin k) (c : Fin b) :
    broadcastTo ⟨3, ![a, k, b]⟩ x h (ix3 p q c) = x (ix3 (0 : Fin 1) q (0 : Fin 1)) := by
  refine broadcastTo_apply x h (ix3 p q c) (ix3 (0 : Fin 1) q (0 : Fin 1)) fun ax => ?_
  match ax with
  | ⟨0, _⟩ => rfl
  | ⟨1, _⟩ =>
    show q.val = if k = 1 then 0 else q.val
    split
    · have := q.isLt; omega
    · rfl
  | ⟨2, _⟩ => rfl

end Cert.LibLayoutCols
-- ==== Proof.KernelEntries.lean ====
/-
  The three kernels' stored values read at one entry (r, j) of a tile, at the extended reals, as functions of the
  tile's rows and of the small operands:
  * the first store of the dense-features kernel is the product tile `x · W1`: row r of the x tile against column j;
  * its second store is the bi-interaction entry `Spec.fm` of that row, the columns j of `V` and of the third
    operand (the host's `V * V`), and the entries j of the one-row scale and shift;
  * the projection kernel's store is row r of the h tile against column j of `W2`;
  * the epilogue kernel's store is the log-softmax `Spec.lsm` of the row `s (r, ·) + b2 (0, ·)` at j.
  Pointwise operations read through an index definitionally; the matrix products are inner products (Dots.lean); a
  one-row operand broadcast down the rows reads its row; a lane reduction is the fold, or the sum, over the row.
-/
import proofs.«173160_j52012053955018_1_alg».proof.Proof.Gen.KernelIdeal.Skeleton
import proofs.«173160_j52012053955018_1_alg».proof.Proof.Spec
import proofs.«173160_j52012053955018_1_alg».proof.Proof.Dots
import proofs.«173160_j52012053955018_1_alg».proof.Proof.LibLayoutCols
import Idealize.ShloMosaic.Lib.Pipeline.Value
import Idealize.ShloMosaic.Lib.ValueLayout
import Idealize.ShloMosaic.PureOps.Ideal.Laws

noncomputable section

namespace Cert.KernelIdeal.Entries

open Cert.KernelIdeal Cert.KernelIdeal.Gen Idealize.ShloMosaic Idealize.ShloMosaic.ValueIdx

theorem dotA_plain : (dot_S5000x512_S512x8_S5000x8_1_0_0_1_n_n : DotDims S5000x512 S512x8 S5000x8) = DotDims.plain 5000 512 8 := rfl
theorem dotB_plain : (dot_S5000x8_S8x16_S5000x16_1_0_0_1_n_n : DotDims S5000x8 S8x16 S5000x16) = DotDims.plain 5000 8 16 := rfl

/-- The product tile `x · W1` at (r, j). -/
theorem pay_xw1 (x : Vec Ideal S5000x512 .f32) (w : Vec Ideal S512x8 .f32) (r : Fin 5000) (j : Fin 8) :
    k0_pay1 (F := Ideal) x w (ix2 r j) = Cert.Spec.dot (fun k => x (ix2 r k)) (fun k => w (ix2 k j)) := by
  unfold k0_pay1
  exact Cert.Dots.matmul_entry _ dotA_plain x w r j

/-- The projection tile `h · W2` at (r, j). -/
theorem pay_hw2 (h : Vec Ideal S5000x8 .f32) (w : Vec Ideal S8x16 .f32) (r : Fin 5000) (j : Fin 16) :
    k1_pay1 (F := Ideal) h w (ix2 r j) = Cert.Spec.dot (fun k => h (ix2 r k)) (fun k => w (ix2 k j)) := by
  unfold k1_pay1
  rw [shapeCast_self]
  exact Cert.Dots.matmul_entry _ dotB_plain h w r j

/-- The bi-interaction tile at (r, j). -/
theorem pay_fm (x : Vec Ideal S5000x512 .f32) (v v2 : Vec Ideal S512x8 .f32) (g b : Vec Ideal S1x8 .f32) (r : Fin 5000) (j : Fin 8) :
    k0_pay2 (F := Ideal) x v v2 g b (ix2 r j)
      = Cert.Spec.fm (fun k => x (ix2 r k)) (fun k => v (ix2 k j)) (fun k => v2 (ix2 k j)) (g (ix2 (0 : Fin 1) j)) (b (ix2 (0 : Fin 1) j)) := by
  have h10 := Cert.Dots.matmul_entry _ dotA_plain x v r j
  have h12 := Cert.Dots.matmul_entry _ dotA_plain (mulf x x) v2 r j
  have hg := broadcastTo_1b_ab_apply g broadcasts_S1x8_S5000x8 r j
  have hb := broadcastTo_1b_ab_apply b broadcasts_S1x8_S5000x8 r j
  unfold k0_pay2
  simp only [shapeCast_self]
  simp only [addf_apply, mulf_apply, subf_apply, maximumf_apply, broadcast_apply]
  rw [hg, hb, h10, h12]
  simp only [mulf_apply]
  rfl

end Cert.KernelIdeal.Entries

end
-- ==== Proof.KernelSoftmax.lean ====
/-
  The epilogue kernel's stored value at one entry (r, j) of a tile: the log-softmax of the biased row.
  With `v (r, k) = s (r, k) + b2 (0, k)` the body takes the row maximum by a lane reduction from -∞ (and once more
  against -∞), lays it back along the row, subtracts, exponentiates, sums the lanes, takes the logarithm, lays it back
  and subtracts again. A lane reduction at row r folds, or sums, over the sixteen entries (r, k) of the row; a
  kept-dimension column laid along the row reads the column's entry at r.
-/
import proofs.«173160_j52012053955018_1_alg».proof.Proof.Gen.KernelIdeal.Skeleton
import proofs.«173160_j52012053955018_1_alg».proof.Proof.Spec
import proofs.«173160_j52012053955018_1_alg».proof.Proof.LibLayoutCols
import Idealize.ShloMosaic.Lib.Pipeline.Value
import Idealize.ShloMosaic.Lib.ValueLayout
import Idealize.ShloMosaic.PureOps.Ideal.Laws

noncomputable section

namespace Cert.KernelIdeal.Softmax

open Cert.KernelIdeal Cert.KernelIdeal.Gen Idealize.ShloMosaic Idealize.ShloMosaic.ValueIdx Cert.LibLayoutCols

/-- The reduced index r with lane k put back is (r, k). -/
theorem lift_lane (h : S5000x16.Reduces [1] S5000) (r : Fin 5000) (k : Fin (S5000x16.size 1)) :
    h.lift (ix1 r) k = ix2 r (⟨k.val, k.isLt⟩ : Fin 16) := by
  funext c; apply Fin.ext
  fin_cases c <;> rfl

/-- A tile's row maxima (from -∞, and once more against -∞), laid back along the rows. -/
def rowMaxTile (v : FVec Ideal S5000x16 .f32) : FVec Ideal S5000x16 .f32 :=
  broadcastTo S5000x16 (shapeCast S5000x1 (maximumf (broadcast S5000 (Scalar.ofBits .f32 0xFF800000#32 : Ideal .f32))
    (multiReduction .maximumf [1] S5000 v 0xFF800000#32 reduces_S5000x16_S5000 (.inl rfl) rfl)) shapeCasts_S5000_S5000x1) broadcasts_S5000x1_S5000x16

/-- A tile's row-wise log-softmax, as the body's operations compose. -/
def lsmTile (v : FVec Ideal S5000x16 .f32) : FVec Ideal S5000x16 .f32 :=
  subf (subf v (rowMaxTile v)) (broadcastTo S5000x16 (log (shapeCast S5000x1
    (multiReduction .add [1] S5000 (exp (subf v (rowMaxTile v))) 0x00000000#32 reduces_S5000x16_S5000 (.inl rfl) rfl) shapeCasts_S5000_S5000x1)) broadcasts_S5000x1_S5000x16)

/-- The stored value is the log-softmax tile of the biased tile. -/
theorem k2_pay1_eq (s : Vec Ideal S5000x16 .f32) (b : Vec Ideal S1x16 .f32) :
    k2_pay1 (F := Ideal) s b = lsmTile (addf s (broadcastTo S5000x16 b broadcasts_S1x16_S5000x16)) := by
  unfold k2_pay1 lsmTile rowMaxTile
  simp only [shapeCast_self]

/-- The row maxima at (r, j): the row's `Spec.rowMax`. -/
theorem rowMaxTile_entry (v : FVec Ideal S5000x16 .f32) (r : Fin 5000) (j : Fin 16) :
    rowMaxTile v (ix2 r j) = Cert.Spec.rowMax (fun k => v (ix2 r k)) := by
  unfold rowMaxTile
  rw [broadcastTo_a1_ab_apply, shapeCast_a_a1_apply]
  show max (Ideal.ofBits .f32 0xFF800000#32) (multiReduction .maximumf [1] S5000 v 0xFF800000#32 reduces_S5000x16_S5000 (.inl rfl) rfl (ix1 r)) = _
  refine congrArg (max (Ideal.ofBits .f32 0xFF800000#32)) ?_
  refine (Ideal.multiReduction_maximumf_single v 0xFF800000#32 reduces_S5000x16_S5000 (.inl rfl) rfl (ix1 r)).trans ?_
  have hf : (v ∘ reduces_S5000x16_S5000.lift (ix1 r)) = fun k : Fin 16 => v (ix2 r k) :=
    funext fun k => congrArg v (lift_lane reduces_S5000x16_S5000 r k)
  exact congrArg (fun f => Finset.fold max (Ideal.ofBits .f32 0xFF800000#32) f (Finset.univ : Finset (Fin 16))) hf

/-- The log of the lane sums, laid back along the rows, at (r, j). -/
theorem logSum_entry (u : FVec Ideal S5000x16 .f32) (r : Fin 5000) (j : Fin 16) :
    broadcastTo S5000x16 (log (shapeCast S5000x1
      (multiReduction .add [1] S5000 u 0x00000000#32 reduces_S5000x16_S5000 (.inl rfl) rfl) shapeCasts_S5000_S5000x1)) broadcasts_S5000x1_S5000x16 (ix2 r j)
      = Ideal.log (∑ k : Fin 16, u (ix2 r k)) := by
  rw [broadcastTo_a1_ab_apply]
  show Ideal.log (shapeCast S5000x1 (multiReduction .add [1] S5000 u 0x00000000#32 reduces_S5000x16_S5000 (.inl rfl) rfl) shapeCasts_S5000_S5000x1 (ix2 r (0 : Fin 1))) = _
  rw [shapeCast_a_a1_apply]
  refine congrArg Ideal.log ?_
  refine (Ideal.multiReduction_add_single u 0x00000000#32 reduces_S5000x16_S5000 (.inl rfl) rfl (ix1 r)).trans ?_
  exact Finset.sum_congr rfl fun k _ => congrArg u (lift_lane reduces_S5000x16_S5000 r k)

/-- The log-softmax tile at (r, j). -/
theorem lsmTile_entry (v : FVec Ideal S5000x16 .f32) (r : Fin 5000) (j : Fin 16) :
    lsmTile v (ix2 r j) = Cert.Spec.lsm (fun k => v (ix2 r k)) j := by
  unfold lsmTile
  show (v (ix2 r j) - rowMaxTile v (ix2 r j)) - _ = _
  rw [logSum_entry, rowMaxTile_entry]
  unfold Cert.Spec.lsm
  refine congrArg (fun z => (v (ix2 r j) - Cert.Spec.rowMax (fun k => v (ix2 r k))) - Ideal.log z) ?_
  refine Finset.sum_congr rfl fun k _ => ?_
  show Ideal.exp (v (ix2 r k) - rowMaxTile v (ix2 r k)) = _
  rw [rowMaxTile_entry]

/-- The epilogue's stored value at (r, j). -/
theorem pay_lsm (s : Vec Ideal S5000x16 .f32) (b : Vec Ideal S1x16 .f32) (r : Fin 5000) (j : Fin 16) :
    k2_pay1 (F := Ideal) s b (ix2 r j) = Cert.Spec.lsm (fun k => s (ix2 r k) + b (ix2 (0 : Fin 1) k)) j := by
  rw [k2_pay1_eq, lsmTile_entry]
  refine congrArg (fun f => Cert.Spec.lsm f j) (funext fun k => ?_)
  show s (ix2 r k) + broadcastTo S5000x16 b broadcasts_S1x16_S5000x16 (ix2 r k) = _
  rw [broadcastTo_1b_ab_apply]

end Cert.KernelIdeal.Softmax

end
-- ==== Proof.RefEntries.lean ====
/-
  The reference's dense stages read at one entry (R, j) of the whole arrays, at the extended reals:
  * `x @ W1` is row R of `x` against column j of `W1`;
  * the bi-interaction branch with its affine map is `Spec.fm` of row R of `x`, column j of `V`, the same column of
    `V * V`, and the entries j of `gamma` and `beta` (each broadcast first to one row, then down the rows);
  * `h @ W2` is row R of `h` against column j of `W2`;
  * the biased sums `spmm + b2` at (R, k) add entry k of `b2`.
  The pointwise stages read through an index by the read module's lemmas; the matrix products are inner products.
-/
import proofs.«173160_j52012053955018_1_alg».proof.Proof.RefRead
import proofs.«173160_j52012053955018_1_alg».proof.Proof.Spec
import proofs.«173160_j52012053955018_1_alg».proof.Proof.Dots

noncomputable section

namespace Cert.ReferenceIdeal.Entries

open Cert.ReferenceIdeal Cert.ReferenceIdeal.ReadP Idealize.ShloMosaic Idealize.ShloMosaic.ValueIdx

theorem dotN_plain : (dot_S100000x512_S512x8_S100000x8_1_0_0_1_n_n : DotDims S100000x512 S512x8 S100000x8) = DotDims.plain 100000 512 8 := rfl
theorem dotN16_plain : (dot_S100000x8_S8x16_S100000x16_1_0_0_1_n_n : DotDims S100000x8 S8x16 S100000x16) = DotDims.plain 100000 8 16 := rfl

/-- `x @ W1` at (R, j). -/
theorem ref_xw1 (x0 : (⟨S100000x512, .f32⟩ : BufTy).Contents (Elt Ideal)) (x4 : (⟨S512x8, .f32⟩ : BufTy).Contents (Elt Ideal)) (R : Fin 100000) (j : Fin 8) :
    val_main_v0 (F := Ideal) x0 x4 (ix2 R j) = Cert.Spec.dot (fun k => x0 (ix2 R k)) (fun k => x4 (ix2 k j)) := by
  unfold val_main_v0
  exact Cert.Dots.dotGeneral_entry _ dotN_plain x0 x4 R j

/-- One row of `gamma` (or `beta`) laid down the rows, at (R, j): the vector's entry j. -/
theorem idx_row (R : Fin 100000) (j : Fin 8) : idx_main_v27 (idx_main_v28 (ix2 R j)) = ix1 j :=
  funext fun a => Fin.ext (by match a with | ⟨0, _⟩ => rfl)

/-- The bi-interaction branch with its affine map at (R, j). -/
theorem ref_fm (x0 : (⟨S100000x512, .f32⟩ : BufTy).Contents (Elt Ideal)) (x8 : (⟨S512x8, .f32⟩ : BufTy).Contents (Elt Ideal))
    (x9 x10 : (⟨S8, .f32⟩ : BufTy).Contents (Elt Ideal)) (R : Fin 100000) (j : Fin 8) :
    val_main_v32 (F := Ideal) x0 x8 x9 x10 (ix2 R j)
      = Cert.Spec.fm (fun k => x0 (ix2 R k)) (fun k => x8 (ix2 k j)) (fun k => x8 (ix2 k j) * x8 (ix2 k j)) (x9 (ix1 j)) (x10 (ix1 j)) := by
  have h18 : val_main_v18 (F := Ideal) x0 x8 (ix2 R j) = Cert.Spec.dot (fun k => x0 (ix2 R k)) (fun k => x8 (ix2 k j)) := by
    unfold val_main_v18
    exact Cert.Dots.dotGeneral_entry _ dotN_plain x0 x8 R j
  have h21 : val_main_v21 (F := Ideal) x0 x8 (ix2 R j)
      = Cert.Spec.dot (fun k => x0 (ix2 R k) * x0 (ix2 R k)) (fun k => x8 (ix2 k j) * x8 (ix2 k j)) := by
    unfold val_main_v21 val_main_v19 val_main_v20
    exact Cert.Dots.dotGeneral_entry _ dotN_plain (mulf x0 x0) (mulf x8 x8) R j
  have e27 : idx_main_v27 (idx_main_v28 (ix2 R j)) = ix1 j := idx_row R j
  have e30 : idx_main_v30 (idx_main_v31 (ix2 R j)) = ix1 j := funext fun a => Fin.ext (by match a with | ⟨0, _⟩ => rfl)
  rw [val_main_v32_apply, val_main_v29_apply, val_main_v31_apply, val_main_v30_apply, val_main_v28_apply, val_main_v27_apply,
    val_main_v26_apply, val_main_v25_apply, val_main_call1_v0_apply, val_main_call1_cst_apply, val_main_v24_apply, val_main_cst_1_apply,
    val_main_v23_apply, val_main_v22_apply, h18, h21, e27, e30]
  rfl

/-- `h @ W2` at (R, j), `h` the stage before it. -/
theorem ref_hw2 (x0 : (⟨S100000x512, .f32⟩ : BufTy).Contents (Elt Ideal)) (x1 x2 : (⟨S3200000, .i32⟩ : BufTy).Contents (Elt Ideal)) (x3 : (⟨S3200000, .f32⟩ : BufTy).Contents (Elt Ideal)) (x4 : (⟨S512x8, .f32⟩ : BufTy).Contents (Elt Ideal)) (x5 : (⟨S8, .f32⟩ : BufTy).Contents (Elt Ideal)) (x6 : (⟨S8x16, .f32⟩ : BufTy).Contents (Elt Ideal)) (x7 : (⟨S16, .f32⟩ : BufTy).Contents (Elt Ideal)) (x8 : (⟨S512x8, .f32⟩ : BufTy).Contents (Elt Ideal)) (x9 x10 : (⟨S8, .f32⟩ : BufTy).Contents (Elt Ideal)) (R : Fin 100000) (j : Fin 16) :
    val_main_v36 (F := Ideal) x0 x1 x2 x3 x4 x5 x6 x8 x9 x10 (ix2 R j)
      = Cert.Spec.dot (fun k => val_main_v35 (F := Ideal) x0 x1 x2 x3 x4 x5 x8 x9 x10 (ix2 R k)) (fun k => x6 (ix2 k j)) := by
  unfold val_main_v36
  generalize val_main_v35 (F := Ideal) x0 x1 x2 x3 x4 x5 x8 x9 x10 = y
  exact Cert.Dots.dotGeneral_entry _ dotN16_plain y x6 R j

/-- The biased sums at (R, k): entry k of `b2` added. -/
theorem ref_bias (x0 : (⟨S100000x512, .f32⟩ : BufTy).Contents (Elt Ideal)) (x1 x2 : (⟨S3200000, .i32⟩ : BufTy).Contents (Elt Ideal)) (x3 : (⟨S3200000, .f32⟩ : BufTy).Contents (Elt Ideal)) (x4 : (⟨S512x8, .f32⟩ : BufTy).Contents (Elt Ideal)) (x5 : (⟨S8, .f32⟩ : BufTy).Contents (Elt Ideal)) (x6 : (⟨S8x16, .f32⟩ : BufTy).Contents (Elt Ideal)) (x7 : (⟨S16, .f32⟩ : BufTy).Contents (Elt Ideal)) (x8 : (⟨S512x8, .f32⟩ : BufTy).Contents (Elt Ideal)) (x9 x10 : (⟨S8, .f32⟩ : BufTy).Contents (Elt Ideal)) (R : Fin 100000) (k : Fin 16) :
    val_main_v52 (F := Ideal) x0 x1 x2 x3 x4 x5 x6 x7 x8 x9 x10 (ix2 R k)
      = val_main_v49 (F := Ideal) x0 x1 x2 x3 x4 x5 x6 x8 x9 x10 (ix2 R k) + x7 (ix1 k) := by
  have e : idx_main_v50 (idx_main_v51 (ix2 R k)) = ix1 k := funext fun a => Fin.ext (by match a with | ⟨0, _⟩ => rfl)
  rw [val_main_v52_apply, val_main_v51_apply, val_main_v50_apply, e]
  rfl

end Cert.ReferenceIdeal.Entries

end
-- ==== Proof.KernelFinals.lean ====
/-
  What each pipeline leaves in its output arrays, from ANY contents `V` of the buffers at the region's entry.
  At point t the body stores, into rows 5000·t … 5000·t + 4999 of an output, a function of the same rows of its tiled
  inputs and of the small operands, and the twenty tiles cover the array. Entry by entry (Tiles.lean for the geometry,
  KernelEntries.lean and KernelSoftmax.lean for the stored values):
  * pipeline 0, first output: the matrix product of the arrays at `x` and `W1` — the host's `dot_general` of them;
  * pipeline 0, second output: at (R, j) the bi-interaction entry `Spec.fm` of row R, the columns j of the second and
    third small operands and the entries j of the two one-row operands;
  * pipeline 1: the matrix product of its input array with `W2`;
  * pipeline 2: at (R, j) the log-softmax `Spec.lsm` of row R of its input plus the one-row operand, at j.
-/
import proofs.«173160_j52012053955018_1_alg».proof.Proof.Gen.KernelIdeal.Frame
import proofs.«173160_j52012053955018_1_alg».proof.Proof.Tiles
import proofs.«173160_j52012053955018_1_alg».proof.Proof.KernelEntries
import proofs.«173160_j52012053955018_1_alg».proof.Proof.KernelSoftmax
import proofs.«173160_j52012053955018_1_alg».proof.Proof.RefEntries
import Idealize.ShloMosaic.Lib.Pipeline.Value

set_option maxRecDepth 16384

noncomputable section

namespace Cert.KernelIdeal.Finals

open Cert.KernelIdeal Cert.KernelIdeal.Gen Cert.KernelIdeal.Tiles Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Pipeline 0, first output: `x · W1` -/

/-- What point t writes back is tile t of the product of the whole arrays. -/
theorem flushed0_6 (c : Dev nD) (t : Fin cfg0.N) :
    (dat0 (F := Ideal) V c).flushed 6 t
      = ((cfg0.win 6).blk t).view.read (Elt Ideal) (Cert.ReferenceIdeal.ReadP.val_main_v0 (F := Ideal) (V c main_arg0) (V c main_arg4)) := by
  show (cfg0.win 6).cut (grid0.coords t) ((dat0 (F := Ideal) V c).after 6 t) = _
  rw [after0_6]
  unfold out0_6
  rw [View.canon_unit_zero hz]
  simp only [View.ld_unit_zero (S := S5000x512) hz, View.ld_unit_zero (S := S512x8) hz]
  funext y
  obtain ⟨r, j, rfl⟩ : ∃ (r : Fin 5000) (j : Fin 8), y = ix2 r j := ⟨y 0, y 1, eq_ix2 y⟩
  show k0_pay1 (F := Ideal) (iblk0 V c 0 t) (iblk0 V c 1 t) (ix2 r j)
      = Cert.ReferenceIdeal.ReadP.val_main_v0 (F := Ideal) (V c main_arg0) (V c main_arg4) (((cfg0.win 6).blk t).view.emb (ix2 r j))
  rw [emb0_6 t r j, Cert.ReferenceIdeal.Entries.ref_xw1]
  refine (Entries.pay_xw1 (iblk0 V c 0 t) (iblk0 V c 1 t) r j).trans ?_
  exact congrArg₂ (Cert.Spec.dot (K := 512)) (funext fun k => congrArg (V c main_arg0) (emb0_0 t r k))
    (funext fun k => congrArg (V c main_arg4) (emb0_1 t k j))

/-- The first output array after pipeline 0. -/
theorem final0_6 (c : Dev nD) :
    (dat0 (F := Ideal) V c).arrAt 6 cfg0.N = Cert.ReferenceIdeal.ReadP.val_main_v0 (F := Ideal) (V c main_arg0) (V c main_arg4) :=
  (dat0 (F := Ideal) V c).arrAt_eq_of_cover 6 _ (fun t _ => flushed0_6 V c t) cover0_6

/-! ## Pipeline 0, second output: the bi-interaction branch -/

/-- The bi-interaction entry at (R, j) of five arrays: `x`, `V`, the third small operand, and the two one-row operands. -/
def fmOf (x : S100000x512.Idx → EReal) (v v2 : S512x8.Idx → EReal) (g b : S1x8.Idx → EReal) (R : Fin 100000) (j : Fin 8) : EReal :=
  Cert.Spec.fm (fun k => x (ix2 R k)) (fun k => v (ix2 k j)) (fun k => v2 (ix2 k j)) (g (ix2 (0 : Fin 1) j)) (b (ix2 (0 : Fin 1) j))

theorem fm_congr {xr xr' vc vc' wc wc' : Fin 512 → EReal} {g g' b b' : EReal} (h1 : xr = xr') (h2 : vc = vc') (h3 : wc = wc')
    (h4 : g = g') (h5 : b = b') : Cert.Spec.fm xr vc wc g b = Cert.Spec.fm xr' vc' wc' g' b' := by
  subst h1 h2 h3 h4 h5; rfl

/-- The bi-interaction entry at (R, j), from the arrays at pipeline 0's entry. -/
def fmAt (c : Dev nD) (R : Fin 100000) (j : Fin 8) : EReal :=
  fmOf (V c main_arg0) (V c main_arg8) (V c main_v0) (V c main_v1) (V c main_v2) R j

/-- The whole second output as a function of its index. -/
def fmAll (c : Dev nD) : S100000x8.Idx → EReal := fun i => fmAt V c ⟨(i 0).val, idx2_lt0 i⟩ ⟨(i 1).val, idx2_lt1 i⟩

theorem fmAll_ix2 (c : Dev nD) (R : Fin 100000) (j : Fin 8) : fmAll V c (ix2 R j) = fmAt V c R j := rfl

theorem flushed0_7 (c : Dev nD) (t : Fin cfg0.N) :
    (dat0 (F := Ideal) V c).flushed 7 t = ((cfg0.win 7).blk t).view.read (Elt Ideal) (fmAll V c) := by
  show (cfg0.win 7).cut (grid0.coords t) ((dat0 (F := Ideal) V c).after 7 t) = _
  rw [after0_7]
  unfold out0_7
  rw [View.canon_unit_zero hz]
  simp only [View.ld_unit_zero (S := S5000x512) hz, View.ld_unit_zero (S := S512x8) hz, View.ld_unit_zero (S := S1x8) hz]
  funext y
  obtain ⟨r, j, rfl⟩ : ∃ (r : Fin 5000) (j : Fin 8), y = ix2 r j := ⟨y 0, y 1, eq_ix2 y⟩
  show k0_pay2 (F := Ideal) (iblk0 V c 0 t) (iblk0 V c 2 t) (iblk0 V c 3 t) (iblk0 V c 4 t) (iblk0 V c 5 t) (ix2 r j)
      = fmAll V c (((cfg0.win 7).blk t).view.emb (ix2 r j))
  rw [emb0_7 t r j, fmAll_ix2]
  refine (Entries.pay_fm (iblk0 V c 0 t) (iblk0 V c 2 t) (iblk0 V c 3 t) (iblk0 V c 4 t) (iblk0 V c 5 t) r j).trans ?_
  exact fm_congr (funext fun k => congrArg (V c main_arg0) (emb0_0 t r k)) (funext fun k => congrArg (V c main_arg8) (emb0_2 t k j))
    (funext fun k => congrArg (V c main_v0) (emb0_3 t k j)) (congrArg (V c main_v1) (emb0_4 t 0 j)) (congrArg (V c main_v2) (emb0_5 t 0 j))

/-- The second output array after pipeline 0. -/
theorem final0_7 (c : Dev nD) : (dat0 (F := Ideal) V c).arrAt 7 cfg0.N = fmAll V c :=
  (dat0 (F := Ideal) V c).arrAt_eq_of_cover 7 _ (fun t _ => flushed0_7 V c t) cover0_7

/-! ## Pipeline 1: `h · W2` -/

/-- The host's product of an `[N, 8]` array with an `[8, 16]` one. -/
def hw2Of (h : FVec Ideal Cert.ReferenceIdeal.S100000x8 .f32) (w : FVec Ideal Cert.ReferenceIdeal.S8x16 .f32) : FVec Ideal Cert.ReferenceIdeal.S100000x16 .f32 :=
  Host.dotGeneral (F := Ideal) Cert.ReferenceIdeal.dot_S100000x8_S8x16_S100000x16_1_0_0_1_n_n none h w

theorem hw2Of_entry (h : FVec Ideal Cert.ReferenceIdeal.S100000x8 .f32) (w : FVec Ideal Cert.ReferenceIdeal.S8x16 .f32) (R : Fin 100000) (j : Fin 16) :
    hw2Of h w (ix2 R j) = Cert.Spec.dot (fun k => h (ix2 R k)) (fun k => w (ix2 k j)) :=
  Cert.Dots.dotGeneral_entry _ Cert.ReferenceIdeal.Entries.dotN16_plain h w R j

theorem flushed1_2 (c : Dev nD) (t : Fin cfg1.N) :
    (dat1 (F := Ideal) V c).flushed 2 t
      = ((cfg1.win 2).blk t).view.read (Elt Ideal)
          (hw2Of (V c main_v23) (V c main_arg6)) := by
  show (cfg1.win 2).cut (grid1.coords t) ((dat1 (F := Ideal) V c).after 2 t) = _
  rw [after1_2]
  unfold out1_2
  rw [View.canon_unit_zero hz]
  simp only [View.ld_unit_zero (S := S5000x8) hz, View.ld_unit_zero (S := S8x16) hz]
  funext y
  obtain ⟨r, j, rfl⟩ : ∃ (r : Fin 5000) (j : Fin 16), y = ix2 r j := ⟨y 0, y 1, eq_ix2 y⟩
  show k1_pay1 (F := Ideal) (iblk1 V c 0 t) (iblk1 V c 1 t) (ix2 r j)
      = hw2Of (V c main_v23) (V c main_arg6) (((cfg1.win 2).blk t).view.emb (ix2 r j))
  rw [emb1_2 t r j, hw2Of_entry]
  refine (Entries.pay_hw2 (iblk1 V c 0 t) (iblk1 V c 1 t) r j).trans ?_
  exact congrArg₂ (Cert.Spec.dot (K := 8)) (funext fun k => congrArg (V c main_v23) (emb1_0 t r k))
    (funext fun k => congrArg (V c main_arg6) (emb1_1 t k j))

/-- The output array after pipeline 1. -/
theorem final1_2 (c : Dev nD) :
    (dat1 (F := Ideal) V c).arrAt 2 cfg1.N
      = hw2Of (V c main_v23) (V c main_arg6) :=
  (dat1 (F := Ideal) V c).arrAt_eq_of_cover 2 _ (fun t _ => flushed1_2 V c t) cover1_2

/-! ## Pipeline 2: the log-softmax of the biased rows -/

/-- The log-softmax entry at (R, j) of an array plus a one-row operand. -/
def lsmOfArr (s : S100000x16.Idx → EReal) (b : S1x16.Idx → EReal) (R : Fin 100000) (j : Fin 16) : EReal :=
  Cert.Spec.lsm (fun k => s (ix2 R k) + b (ix2 (0 : Fin 1) k)) j

/-- The log-softmax entry at (R, j), from the arrays at pipeline 2's entry. -/
def lsmAt (c : Dev nD) (R : Fin 100000) (j : Fin 16) : EReal := lsmOfArr (V c main_v37) (V c main_v38) R j

/-- The whole output as a function of its index. -/
def lsmAll (c : Dev nD) : S100000x16.Idx → EReal := fun i => lsmAt V c ⟨(i 0).val, idx2_lt0 i⟩ ⟨(i 1).val, idx2_lt1 i⟩

theorem lsmAll_ix2 (c : Dev nD) (R : Fin 100000) (j : Fin 16) : lsmAll V c (ix2 R j) = lsmAt V c R j := rfl

theorem flushed2_2 (c : Dev nD) (t : Fin cfg2.N) :
    (dat2 (F := Ideal) V c).flushed 2 t = ((cfg2.win 2).blk t).view.read (Elt Ideal) (lsmAll V c) := by
  show (cfg2.win 2).cut (grid2.coords t) ((dat2 (F := Ideal) V c).after 2 t) = _
  rw [after2_2]
  unfold out2_2
  rw [View.canon_unit_zero hz]
  simp only [View.ld_unit_zero (S := S5000x16) hz, View.ld_unit_zero (S := S1x16) hz]
  funext y
  obtain ⟨r, j, rfl⟩ : ∃ (r : Fin 5000) (j : Fin 16), y = ix2 r j := ⟨y 0, y 1, eq_ix2 y⟩
  show k2_pay1 (F := Ideal) (iblk2 V c 0 t) (iblk2 V c 1 t) (ix2 r j) = lsmAll V c (((cfg2.win 2).blk t).view.emb (ix2 r j))
  rw [emb2_2 t r j, lsmAll_ix2]
  refine (Softmax.pay_lsm (iblk2 V c 0 t) (iblk2 V c 1 t) r j).trans ?_
  unfold lsmAt lsmOfArr
  refine congrArg (fun f => Cert.Spec.lsm f j) (funext fun k => ?_)
  exact congrArg₂ (· + ·) (congrArg (V c main_v37) (emb2_0 t r k)) (congrArg (V c main_v38) (emb2_1 t 0 k))

/-- The output array after pipeline 2. -/
theorem final2_2 (c : Dev nD) : (dat2 (F := Ideal) V c).arrAt 2 cfg2.N = lsmAll V c :=
  (dat2 (F := Ideal) V c).arrAt_eq_of_cover 2 _ (fun t _ => flushed2_2 V c t) cover2_2

end Cert.KernelIdeal.Finals

end
-- ==== Proof.KernelHost.lean ====
/-
  The host operations between the pipelines, from ANY contents `W` of the buffers, in the vocabulary of the
  reference's stages (the read module's `val_…` functions), so that the two programs' host stretches are visibly the
  same operations:
  * before pipeline 0: `V * V`, and `gamma`, `beta` each reshaped to one row;
  * between pipelines 0 and 1: the sparse product (gather the rows named by the column indices, scale by the edge
    values, scatter-add into the rows named by the row indices) of pipeline 0's first output, plus `b1`, the relu, the
    sum with pipeline 0's second output, and the halving;
  * between pipelines 1 and 2: the sparse product of pipeline 1's output, and `b2` reshaped to one row.
  Buffers a stretch does not write keep their contents.
-/
import proofs.«173160_j52012053955018_1_alg».proof.Proof.Gen.KernelIdeal.Launch
import proofs.«173160_j52012053955018_1_alg».proof.Proof.RefRead
import Idealize.ShloMosaic.Lib.StableHlo.Run
import Idealize.ShloMosaic.Lib.Pipeline.Value
import Idealize.ShloMosaic.Lib.ValueLayout

set_option maxRecDepth 16384

noncomputable section

namespace Cert.KernelIdeal.HostSide

open Cert.KernelIdeal Cert.KernelIdeal.Gen Idealize.ShloMosaic Idealize.ShloMosaic.TcCoe Idealize.ShloMosaic.ValueIdx Idealize.SL.Sem Idealize.ShloMosaic.StableHlo
open Cert.ReferenceIdeal.ReadP

variable {F : FTy → Type} [FloatOps F]

/-! ## Before pipeline 0 -/

/-- The third small operand of pipeline 0 is `V * V`. -/
theorem s0_v0 (W : Valuation τ sig (Elt F)) :
    after hostOps0 W (Proc.devRef .tc main_v0) = mulf (W (Proc.devRef .tc main_arg8)) (W (Proc.devRef .tc main_arg8)) := by
  after_results

/-- `gamma` as one row. -/
theorem s0_v1 (W : Valuation τ sig (Elt F)) :
    (after hostOps0 W (Proc.devRef .tc main_v1) : S1x8.Idx → Elt F .f32) = shapeCast S1x8 (W (Proc.devRef .tc main_arg9)) shapeCasts_S8_S1x8 := by
  after_results
  rfl

/-- `beta` as one row. -/
theorem s0_v2 (W : Valuation τ sig (Elt F)) :
    (after hostOps0 W (Proc.devRef .tc main_v2) : S1x8.Idx → Elt F .f32) = shapeCast S1x8 (W (Proc.devRef .tc main_arg10)) shapeCasts_S8_S1x8 := by
  after_results
  rfl

theorem s0_arg0 (W : Valuation τ sig (Elt F)) :
    after hostOps0 W (Proc.devRef .tc main_arg0) = W (Proc.devRef .tc main_arg0) := by
  after_results_simp

theorem s0_arg1 (W : Valuation τ sig (Elt F)) :
    after hostOps0 W (Proc.devRef .tc main_arg1) = W (Proc.devRef .tc main_arg1) := by
  after_results_simp

theorem s0_arg2 (W : Valuation τ sig (Elt F)) :
    after hostOps0 W (Proc.devRef .tc main_arg2) = W (Proc.devRef .tc main_arg2) := by
  after_results_simp

theorem s0_arg3 (W : Valuation τ sig (Elt F)) :
    after hostOps0 W (Proc.devRef .tc main_arg3) = W (Proc.devRef .tc main_arg3) := by
  after_results_simp

theorem s0_arg4 (W : Valuation τ sig (Elt F)) :
    after hostOps0 W (Proc.devRef .tc main_arg4) = W (Proc.devRef .tc main_arg4) := by
  after_results_simp

theorem s0_arg5 (W : Valuation τ sig (Elt F)) :
    after hostOps0 W (Proc.devRef .tc main_arg5) = W (Proc.devRef .tc main_arg5) := by
  after_results_simp

theorem s0_arg6 (W : Valuation τ sig (Elt F)) :
    after hostOps0 W (Proc.devRef .tc main_arg6) = W (Proc.devRef .tc main_arg6) := by
  after_results_simp

theorem s0_arg7 (W : Valuation τ sig (Elt F)) :
    after hostOps0 W (Proc.devRef .tc main_arg7) = W (Proc.devRef .tc main_arg7) := by
  after_results_simp

theorem s0_arg8 (W : Valuation τ sig (Elt F)) :
    after hostOps0 W (Proc.devRef .tc main_arg8) = W (Proc.devRef .tc main_arg8) := by
  after_results_simp

/-! ## Between pipelines 0 and 1 -/

set_option maxHeartbeats 4000000 in
/-- The input of pipeline 1, from pipeline 0's two outputs. -/
theorem s1_v23 (W : Valuation τ sig (Elt F)) :
    after hostOps1_2 (after hostOps1_1 (after hostOps1 W)) (Proc.devRef .tc main_v23)
      = mulf (val_main_v34 (F := F)) (addf (maximumf (addf (Host.scatterAdd Cert.ReferenceIdeal.scatter_S100000x8_S3200000x1_S3200000x8_1_0_0_1
            (val_main_v11 (F := F)) (val_main_v12 (F := F) (W (Proc.devRef .tc main_arg1)))
            (mulf (val_main_v9 (F := F) (W (Proc.devRef .tc main_arg3)))
              (Host.gather Cert.ReferenceIdeal.gather_S100000x8_S3200000x1_S3200000x8_1_0_n_n_0_1_18 (W (Proc.devRef .tc main_v3_0)) (val_main_v7 (F := F) (W (Proc.devRef .tc main_arg2))))))
          (val_main_v15 (F := F) (W (Proc.devRef .tc main_arg5)))) (val_main_call0_v0 (F := F))) (W (Proc.devRef .tc main_v3_1))) := by
  after_results_simp
  rfl

theorem s1_arg1 (W : Valuation τ sig (Elt F)) :
    after hostOps1_2 (after hostOps1_1 (after hostOps1 W)) (Proc.devRef .tc main_arg1) = W (Proc.devRef .tc main_arg1) := by
  after_results_simp

theorem s1_arg2 (W : Valuation τ sig (Elt F)) :
    after hostOps1_2 (after hostOps1_1 (after hostOps1 W)) (Proc.devRef .tc main_arg2) = W (Proc.devRef .tc main_arg2) := by
  after_results_simp

theorem s1_arg3 (W : Valuation τ sig (Elt F)) :
    after hostOps1_2 (after hostOps1_1 (after hostOps1 W)) (Proc.devRef .tc main_arg3) = W (Proc.devRef .tc main_arg3) := by
  after_results_simp

theorem s1_arg6 (W : Valuation τ sig (Elt F)) :
    after hostOps1_2 (after hostOps1_1 (after hostOps1 W)) (Proc.devRef .tc main_arg6) = W (Proc.devRef .tc main_arg6) := by
  after_results_simp

theorem s1_arg7 (W : Valuation τ sig (Elt F)) :
    after hostOps1_2 (after hostOps1_1 (after hostOps1 W)) (Proc.devRef .tc main_arg7) = W (Proc.devRef .tc main_arg7) := by
  after_results_simp

/-! ## Between pipelines 1 and 2 -/

set_option maxHeartbeats 4000000 in
/-- The input of pipeline 2, from pipeline 1's output. -/
theorem s2_v37 (W : Valuation τ sig (Elt F)) :
    after hostOps2 W (Proc.devRef .tc main_v37)
      = Host.scatterAdd Cert.ReferenceIdeal.scatter_S100000x16_S3200000x1_S3200000x16_1_0_0_1
          (val_main_v47 (F := F)) (val_main_v48 (F := F) (W (Proc.devRef .tc main_arg1)))
          (mulf (val_main_v45 (F := F) (W (Proc.devRef .tc main_arg3)))
            (Host.gather Cert.ReferenceIdeal.gather_S100000x16_S3200000x1_S3200000x16_1_0_n_n_0_1_116 (W (Proc.devRef .tc main_v24)) (val_main_v43 (F := F) (W (Proc.devRef .tc main_arg2))))) := by
  after_results_simp
  rfl

/-- `b2` as one row. -/
theorem s2_v38 (W : Valuation τ sig (Elt F)) :
    (after hostOps2 W (Proc.devRef .tc main_v38) : S1x16.Idx → Elt F .f32) = shapeCast S1x16 (W (Proc.devRef .tc main_arg7)) shapeCasts_S16_S1x16 := by
  after_results
  rfl

end Cert.KernelIdeal.HostSide

end
-- ==== Proof.RefSoftmax.lean ====
/-
  The reference's last stage at one entry (R, j): the log-softmax of row R of the biased sums.
  The outlined function reduces each row by a maximum from -∞ (and once more against -∞), broadcasts the row's value
  back as a column and then along the row, subtracts, exponentiates, sums each row from 0, takes the logarithm,
  broadcasts it back the same way and subtracts again. The host's reduction over the one axis folds, or sums, over
  the sixteen entries (R, k) of the row; each broadcast reads coordinate 0 on its operand's unit axes.
-/
import proofs.«173160_j52012053955018_1_alg».proof.Proof.RefRun
import proofs.«173160_j52012053955018_1_alg».proof.Proof.Spec
import Idealize.ShloMosaic.Lib.Pipeline.Value
import Idealize.ShloMosaic.PureOps.Ideal.Laws

noncomputable section

namespace Cert.ReferenceIdeal.Softmax

open Cert.ReferenceIdeal Cert.ReferenceIdeal.Gen Cert.ReferenceIdeal.ValueP Idealize.ShloMosaic Idealize.ShloMosaic.ValueIdx

variable {α : Type}

/-- A column `[N, 1]` laid along the rows of `[N, 16]` reads, at (R, j), the column's entry R. -/
theorem bcast_col (y : S100000x1.Idx → α) (R : Fin 100000) (j : Fin 16) :
    broadcastInDim S100000x16 ![0, 1] bcast_S100000x1_S100000x16_0_1 y (ix2 R j) = y (ix2 R (0 : Fin 1)) :=
  broadcastInDim_apply _ bcast_S100000x1_S100000x16_0_1 y (ix2 R j) (ix2 R (0 : Fin 1)) (fun a => match a with
    | ⟨0, _⟩ => by show R.val = if (100000 : Nat) = 1 then 0 else R.val; rw [if_neg (by decide)]
    | ⟨1, _⟩ => by show 0 = if (1 : Nat) = 1 then 0 else j.val; rw [if_pos rfl])

/-- A vector `[N]` cast to a column `[N, 1]` reads, at (R, 0), the vector's entry R. -/
theorem bcast_vec (y : S100000.Idx → α) (R : Fin 100000) (u : Fin 1) :
    broadcastInDim S100000x1 ![0] bcast_S100000_S100000x1_0 y (ix2 R u) = y (ix1 R) :=
  broadcastInDim_apply _ bcast_S100000_S100000x1_0 y (ix2 R u) (ix1 R) (fun a => match a with
    | ⟨0, _⟩ => by show R.val = if (100000 : Nat) = 1 then 0 else R.val; rw [if_neg (by decide)])

/-- The reduced index R with lane k put back is (R, k). -/
theorem lift_lane (h : S100000x16.Reduces [1] S100000) (R : Fin 100000) (k : Fin (S100000x16.size 1)) :
    h.lift (ix1 R) k = ix2 R (⟨k.val, k.isLt⟩ : Fin 16) := by
  funext c; apply Fin.ext
  fin_cases c <;> rfl

theorem reduces16 : S100000x16.Reduces [1] S100000 := by decide

/-- The rows' maxima (from -∞, and once more against -∞), laid back along the rows. -/
def rowMaxAll (s : FVec Ideal S100000x16 .f32) : FVec Ideal S100000x16 .f32 :=
  broadcastInDim S100000x16 ![0, 1] bcast_S100000x1_S100000x16_0_1 (broadcastInDim S100000x1 ![0] bcast_S100000_S100000x1_0
    (maximumf (broadcastInDim S100000 ![] bcast_S_S100000 (constant S_ .f32 0xFF800000#32))
      (Host.reduce FloatOps.maximumf s (constant S_ .f32 0xFF800000#32) reducesTo_S100000x16_S100000_d1 h_S_)))

theorem lsmOf_eq (s : FVec Ideal S100000x16 .f32) :
    lsmOf (F := Ideal) s = subf (subf s (rowMaxAll s)) (broadcastInDim S100000x16 ![0, 1] bcast_S100000x1_S100000x16_0_1
      (Host.log (broadcastInDim S100000x1 ![0] bcast_S100000_S100000x1_0
        (Host.reduceAdd (Host.exp (subf s (rowMaxAll s))) (constant S_ .f32 0x00000000#32) reducesTo_S100000x16_S100000_d1 h_S_)))) := rfl

/-- A scalar splat along a vector reads the scalar. -/
theorem bcast_scalar (y : S_.Idx → α) (R : Fin 100000) :
    broadcastInDim S100000 ![] bcast_S_S100000 y (ix1 R) = y ix0 :=
  broadcastInDim_apply _ bcast_S_S100000 y (ix1 R) ix0 (fun a => a.elim0)

theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The rows' maxima at (R, j): the row's `Spec.rowMax`. -/
theorem rowMaxAll_entry (s : FVec Ideal S100000x16 .f32) (R : Fin 100000) (j : Fin 16) :
    rowMaxAll s (ix2 R j) = Cert.Spec.rowMax (fun k => s (ix2 R k)) := by
  unfold rowMaxAll Cert.Spec.rowMax Cert.Spec.negInf
  rw [bcast_col, bcast_vec, maximumf_apply, bcast_scalar, constant_apply]
  refine congrArg (max (Ideal.ofBits .f32 0xFF800000#32)) ?_
  refine (Host.reduce_eq_fold_single FloatOps.maximumf s _ reducesTo_S100000x16_S100000_d1 reduces16 h_S_ (ix1 R)).trans ?_
  have hf : (s ∘ reduces16.lift (ix1 R)) = fun k : Fin 16 => s (ix2 R k) :=
    funext fun k => congrArg s (lift_lane reduces16 R k)
  exact congrArg (fun f => Finset.fold max (Ideal.ofBits .f32 0xFF800000#32) f (Finset.univ : Finset (Fin 16))) hf

/-- The log of the rows' sums, laid back along the rows, at (R, j). -/
theorem logSum_entry (u : FVec Ideal S100000x16 .f32) (R : Fin 100000) (j : Fin 16) :
    broadcastInDim S100000x16 ![0, 1] bcast_S100000x1_S100000x16_0_1 (Host.log (broadcastInDim S100000x1 ![0] bcast_S100000_S100000x1_0
      (Host.reduceAdd u (constant S_ .f32 0x00000000#32) reducesTo_S100000x16_S100000_d1 h_S_))) (ix2 R j)
      = Ideal.log (∑ k : Fin 16, u (ix2 R k)) := by
  rw [bcast_col, hostLog_apply, bcast_vec]
  refine congrArg Ideal.log ?_
  simp only [Host.reduceAdd, Ideal.hostReduceAdd_def]
  rw [Ideal.hostReduceAdd_single reducesTo_S100000x16_S100000_d1 reduces16, constant_apply, Ideal.ofBits_zero_f32, zero_add]
  exact Finset.sum_congr rfl fun k _ => congrArg u (lift_lane reduces16 R k)

/-- The log-softmax of the whole array at (R, j). -/
theorem lsmOf_entry (s : FVec Ideal S100000x16 .f32) (R : Fin 100000) (j : Fin 16) :
    lsmOf (F := Ideal) s (ix2 R j) = Cert.Spec.lsm (fun k => s (ix2 R k)) j := by
  rw [lsmOf_eq]
  simp only [subf_apply]
  rw [logSum_entry, rowMaxAll_entry]
  unfold Cert.Spec.lsm
  refine congrArg (fun z => (s (ix2 R j) - Cert.Spec.rowMax (fun k => s (ix2 R k))) - Ideal.log z) ?_
  refine Finset.sum_congr rfl fun k _ => ?_
  rw [hostExp_apply, subf_apply, rowMaxAll_entry]

end Cert.ReferenceIdeal.Softmax

end
-- ==== Proof.KernelValue.lean ====
/-
  The kernel program's result array, followed through @main's eight segments from the launch memory `m`:
  the host operations before pipeline 0 leave `V * V` and the one-row `gamma`, `beta`; pipeline 0 leaves `x · W1` and
  the bi-interaction branch; the host operations after it (the sparse product, `+ b1`, relu, the sum and the halving)
  leave `h`; pipeline 1 leaves `h · W2`; the host operations after it leave its sparse product and the one-row `b2`;
  pipeline 2 leaves the log-softmax of the biased rows. Stage by stage these are the reference's stages of the same
  arguments (the read module's `val_…`), so the result array is the reference's last stage.
-/
import proofs.«173160_j52012053955018_1_alg».proof.Proof.KernelRun
import proofs.«173160_j52012053955018_1_alg».proof.Proof.KernelFinals
import proofs.«173160_j52012053955018_1_alg».proof.Proof.KernelHost
import proofs.«173160_j52012053955018_1_alg».proof.Proof.RefRun
import proofs.«173160_j52012053955018_1_alg».proof.Proof.RefSoftmax
import proofs.«173160_j52012053955018_1_alg».proof.Proof.RefEntries

set_option maxRecDepth 16384

noncomputable section

namespace Cert.KernelIdeal.Value

open Cert.KernelIdeal Cert.KernelIdeal.Gen Idealize.ShloMosaic Idealize.ShloMosaic.TcCoe Idealize.ShloMosaic.ValueIdx Idealize.SL.Sem Idealize.ShloMosaic.StableHlo
open Cert.ReferenceIdeal.ReadP

/-- Equal arrays have equal entries. -/
theorem apply_eq {ι : Type} {f g : ι → EReal} (h : f = g) (i : ι) : f i = g i := congrFun h i

variable (m : (ℓ : Loc nD τ sig) → Buf (Elt Ideal) ℓ) (ρ : Dev nD → PrngReg) (c : Dev nD)

/-! ## At pipeline 0's entry -/

theorem w1_arg0 : W1 m ρ c (Proc.devRef .tc main_arg0) = (m ((c : Thread nD τ).loc main_arg0)) := HostSide.s0_arg0 (W0 m ρ c)
theorem w1_arg1 : W1 m ρ c (Proc.devRef .tc main_arg1) = (m ((c : Thread nD τ).loc main_arg1)) := HostSide.s0_arg1 (W0 m ρ c)
theorem w1_arg2 : W1 m ρ c (Proc.devRef .tc main_arg2) = (m ((c : Thread nD τ).loc main_arg2)) := HostSide.s0_arg2 (W0 m ρ c)
theorem w1_arg3 : W1 m ρ c (Proc.devRef .tc main_arg3) = (m ((c : Thread nD τ).loc main_arg3)) := HostSide.s0_arg3 (W0 m ρ c)
theorem w1_arg4 : W1 m ρ c (Proc.devRef .tc main_arg4) = (m ((c : Thread nD τ).loc main_arg4)) := HostSide.s0_arg4 (W0 m ρ c)
theorem w1_arg5 : W1 m ρ c (Proc.devRef .tc main_arg5) = (m ((c : Thread nD τ).loc main_arg5)) := HostSide.s0_arg5 (W0 m ρ c)
theorem w1_arg6 : W1 m ρ c (Proc.devRef .tc main_arg6) = (m ((c : Thread nD τ).loc main_arg6)) := HostSide.s0_arg6 (W0 m ρ c)
theorem w1_arg7 : W1 m ρ c (Proc.devRef .tc main_arg7) = (m ((c : Thread nD τ).loc main_arg7)) := HostSide.s0_arg7 (W0 m ρ c)
theorem w1_arg8 : W1 m ρ c (Proc.devRef .tc main_arg8) = (m ((c : Thread nD τ).loc main_arg8)) := HostSide.s0_arg8 (W0 m ρ c)

theorem w1_v0 : @Eq (FVec Ideal S512x8 .f32) (W1 m ρ c (Proc.devRef .tc main_v0)) (mulf (m ((c : Thread nD τ).loc main_arg8)) (m ((c : Thread nD τ).loc main_arg8))) := HostSide.s0_v0 (W0 m ρ c)
theorem w1_v1 : (W1 m ρ c (Proc.devRef .tc main_v1) : S1x8.Idx → EReal) = shapeCast S1x8 (m ((c : Thread nD τ).loc main_arg9)) shapeCasts_S8_S1x8 := HostSide.s0_v1 (W0 m ρ c)
theorem w1_v2 : (W1 m ρ c (Proc.devRef .tc main_v2) : S1x8.Idx → EReal) = shapeCast S1x8 (m ((c : Thread nD τ).loc main_arg10)) shapeCasts_S8_S1x8 := HostSide.s0_v2 (W0 m ρ c)

/-! ## At pipeline 0's exit -/

theorem w2_arg1 : W2 m ρ c (Proc.devRef .tc main_arg1) = (m ((c : Thread nD τ).loc main_arg1)) := (W2_of_ne m ρ c main_arg1 (by decide)).trans (w1_arg1 m ρ c)
theorem w2_arg2 : W2 m ρ c (Proc.devRef .tc main_arg2) = (m ((c : Thread nD τ).loc main_arg2)) := (W2_of_ne m ρ c main_arg2 (by decide)).trans (w1_arg2 m ρ c)
theorem w2_arg3 : W2 m ρ c (Proc.devRef .tc main_arg3) = (m ((c : Thread nD τ).loc main_arg3)) := (W2_of_ne m ρ c main_arg3 (by decide)).trans (w1_arg3 m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)

/-- Pipeline 0's first output is the reference's `x @ W1`. -/
theorem w2_v3_0 : W2 m ρ c (Proc.devRef .tc main_v3_0) = val_main_v0 (F := Ideal) (m ((c : Thread nD τ).loc main_arg0)) (m ((c : Thread nD τ).loc main_arg4)) := by
  refine (W2_arr m ρ c 6).trans ?_
  refine (Finals.final0_6 (V1 m ρ) c).trans ?_
  exact congrArg₂ (val_main_v0 (F := Ideal)) (w1_arg0 m ρ c) (w1_arg4 m ρ c)

/-- Pipeline 0's second output is the reference's bi-interaction branch with its affine map. -/
theorem w2_v3_1 : W2 m ρ c (Proc.devRef .tc main_v3_1) = val_main_v32 (F := Ideal) (m ((c : Thread nD τ).loc main_arg0)) (m ((c : Thread nD τ).loc main_arg8)) (m ((c : Thread nD τ).loc main_arg9)) (m ((c : Thread nD τ).loc main_arg10)) := by
  refine (W2_arr m ρ c 7).trans ?_
  refine (Finals.final0_7 (V1 m ρ) c).trans ?_
  funext i
  obtain ⟨R, j, rfl⟩ : ∃ (R : Fin 100000) (j : Fin 8), i = ix2 R j := ⟨i 0, i 1, eq_ix2 i⟩
  rw [Finals.fmAll_ix2, Cert.ReferenceIdeal.Entries.ref_fm]
  unfold Finals.fmAt Finals.fmOf
  refine Finals.fm_congr (funext fun k => apply_eq (w1_arg0 m ρ c) (ix2 R k)) (funext fun k => apply_eq (w1_arg8 m ρ c) (ix2 k j))
    (funext fun k => ?_) ?_ ?_
  · exact apply_eq (w1_v0 m ρ c) (ix2 k j)
  · exact (apply_eq (w1_v1 m ρ c) (ix2 (0 : Fin 1) j)).trans (shapeCast_a_1a_apply _ _ 0 j)
  · exact (apply_eq (w1_v2 m ρ c) (ix2 (0 : Fin 1) j)).trans (shapeCast_a_1a_apply _ _ 0 j)

/-! ## At pipeline 1's entry and exit -/

theorem w5_arg1 : W5 m ρ c (Proc.devRef .tc main_arg1) = (m ((c : Thread nD τ).loc main_arg1)) := (HostSide.s1_arg1 (W2 m ρ c)).trans (w2_arg1 m ρ c)
theorem w5_arg2 : W5 m ρ c (Proc.devRef .tc main_arg2) = (m ((c : Thread nD τ).loc main_arg2)) := (HostSide.s1_arg2 (W2 m ρ c)).trans (w2_arg2 m ρ c)
theorem w5_arg3 : W5 m ρ c (Proc.devRef .tc main_arg3) = (m ((c : Thread nD τ).loc main_arg3)) := (HostSide.s1_arg3 (W2 m ρ c)).trans (w2_arg3 m ρ c)
theorem w5_arg6 : W5 m ρ c (Proc.devRef .tc main_arg6) = (m ((c : Thread nD τ).loc main_arg6)) := (HostSide.s1_arg6 (W2 m ρ c)).trans (w2_arg6 m ρ c)
theorem w5_arg7 : W5 m ρ c (Proc.devRef .tc main_arg7) = (m ((c : Thread nD τ).loc main_arg7)) := (HostSide.s1_arg7 (W2 m ρ c)).trans (w2_arg7 m ρ c)

/-- Pipeline 1's input is the reference's `h`. -/
theorem w5_v23 : W5 m ρ c (Proc.devRef .tc main_v23) = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) := by
  refine (HostSide.s1_v23 (W2 m ρ c)).trans ?_
  rw [w2_v3_0, w2_v3_1, w2_arg1, w2_arg2, w2_arg3, w2_arg5]
  rfl

theorem w6_arg1 : W6 m ρ c (Proc.devRef .tc main_arg1) = (m ((c : Thread nD τ).loc main_arg1)) := (W6_of_ne m ρ c main_arg1 (by decide)).trans (w5_arg1 m ρ c)
theorem w6_arg2 : W6 m ρ c (Proc.devRef .tc main_arg2) = (m ((c : Thread nD τ).loc main_arg2)) := (W6_of_ne m ρ c main_arg2 (by decide)).trans (w5_arg2 m ρ c)
theorem w6_arg3 : W6 m ρ c (Proc.devRef .tc main_arg3) = (m ((c : Thread nD τ).loc main_arg3)) := (W6_of_ne m ρ c main_arg3 (by decide)).trans (w5_arg3 m ρ c)
theorem w6_arg7 : W6 m ρ c (Proc.devRef .tc main_arg7) = (m ((c : Thread nD τ).loc main_arg7)) := (W6_of_ne m ρ c main_arg7 (by decide)).trans (w5_arg7 m ρ c)

/-- Pipeline 1's output is the reference's `h @ W2`. -/
theorem w6_v24 : W6 m ρ c (Proc.devRef .tc main_v24) = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) := by
  refine (W6_arr m ρ c 2).trans ?_
  refine (Finals.final1_2 (V5 m ρ) c).trans ?_
  exact congrArg₂ Finals.hw2Of (w5_v23 m ρ c) (w5_arg6 m ρ c)

/-! ## At pipeline 2's entry and exit -/

/-- Pipeline 2's input is the reference's second sparse product. -/
theorem w7_v37 : W7 m ρ c (Proc.devRef .tc main_v37) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) := by
  refine (HostSide.s2_v37 (W6 m ρ c)).trans ?_
  rw [w6_v24, w6_arg1, w6_arg2, w6_arg3]
  rfl

/-- Pipeline 2's one-row operand is `b2`. -/
theorem w7_v38 : (W7 m ρ c (Proc.devRef .tc main_v38) : S1x16.Idx → EReal) = shapeCast S1x16 (m ((c : Thread nD τ).loc main_arg7)) shapeCasts_S16_S1x16 := by
  refine (HostSide.s2_v38 (W6 m ρ c)).trans ?_
  rw [w6_arg7]

/-- THE RESULT: after the run the kernel program's result array is the reference's last stage of the arguments. -/
theorem result : W8 m ρ c (Proc.devRef .tc main_v39) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W8_arr m ρ c 2).trans ?_
  refine (Finals.final2_2 (V7 m ρ) c).trans ?_
  funext i
  obtain ⟨R, j, rfl⟩ : ∃ (R : Fin 100000) (j : Fin 16), i = ix2 R j := ⟨i 0, i 1, eq_ix2 i⟩
  rw [Finals.lsmAll_ix2, Cert.ReferenceIdeal.ValueP.val_main_v53_lsmOf, Cert.ReferenceIdeal.Softmax.lsmOf_entry]
  unfold Finals.lsmAt Finals.lsmOfArr
  refine congrArg (fun f => Cert.Spec.lsm f j) (funext fun k => ?_)
  rw [Cert.ReferenceIdeal.Entries.ref_bias]
  exact congrArg₂ (· + ·) (apply_eq (w7_v37 m ρ c) (ix2 R k))
    ((apply_eq (w7_v38 m ρ c) (ix2 (0 : Fin 1) k)).trans (shapeCast_a_1a_apply _ _ 0 k))

end Cert.KernelIdeal.Value

end
-- ==== Proof.lean ====
/-
  The kernel — three row-tiled Pallas pipelines (the dense projections `x · W1` and the bi-interaction branch; `h · W2`;
  the bias and log-softmax epilogue) around two sparse products done by gather and scatter-add on the host — against its
  jnp reference, at the extended reals.
  Both programs apply the same operations to the same arguments; they differ in that the kernel computes the three dense
  stages 5000 rows at a time. A row of a tile is a row of the array, a matrix product's entry is the inner product of a
  row with a column however the rows are grouped, and a row's log-softmax sees only that row; so each pipeline leaves
  exactly the array the reference's corresponding operations compute, the host operations between them are the
  reference's own, and the two results are equal entry by entry. No property of the numbers is used beyond the
  operations being the same: the finiteness precondition is never opened.
  The frames of the two kernel programs are the generated ones; the reference's frame is its run with the result
  dropped; the idealization rewrote nothing, so its claim is trivial.
-/
import proofs.«173160_j52012053955018_1_alg».proof.Defs
import proofs.«173160_j52012053955018_1_alg».proof.Proof.Gen.Kernel
import proofs.«173160_j52012053955018_1_alg».proof.Proof.Gen.Kernel.Skeleton
import proofs.«173160_j52012053955018_1_alg».proof.Proof.Gen.Kernel.Launch
import proofs.«173160_j52012053955018_1_alg».proof.Proof.Gen.Kernel.Points
import proofs.«173160_j52012053955018_1_alg».proof.Proof.Gen.Kernel.Frame
import proofs.«173160_j52012053955018_1_alg».proof.Proof.Gen.KernelIdeal
import proofs.«173160_j52012053955018_1_alg».proof.Proof.Gen.KernelIdeal.Skeleton
import proofs.«173160_j52012053955018_1_alg».proof.Proof.Gen.KernelIdeal.Launch
import proofs.«173160_j52012053955018_1_alg».proof.Proof.Gen.KernelIdeal.Points
import proofs.«173160_j52012053955018_1_alg».proof.Proof.Gen.KernelIdeal.Frame
import proofs.«173160_j52012053955018_1_alg».proof.Proof.Gen.ReferenceIdeal
import proofs.«173160_j52012053955018_1_alg».proof.Proof.Gen.Pre_finite_inputs
import proofs.«173160_j52012053955018_1_alg».proof.Proof.KernelRun
import proofs.«173160_j52012053955018_1_alg».proof.Proof.KernelValue
import proofs.«173160_j52012053955018_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs run, and both results are the reference's last stage of
    those arguments: the kernel's by following its result array through the pipelines and the host operations between
    them, the reference's by its own run. -/
theorem algebraic : Cert.algebraic_KernelIdeal_ReferenceIdeal := by
  intro m ρ m' ρ' _ hagree
  refine ⟨fun c => Cert.ReferenceIdeal.ReadP.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Value.result m ρ c), (h c).2⟩) (Cert.KernelIdeal.GenP.run_result m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10⟩ := hagree c
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
